-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x133 : Shape := ⟨2, ![100000, 133]⟩
abbrev S200000x147 : Shape := ⟨2, ![200000, 147]⟩
abbrev S100000x6 : Shape := ⟨2, ![100000, 6]⟩
abbrev S200000 : Shape := ⟨1, ![200000]⟩
abbrev S100000 : Shape := ⟨1, ![100000]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S_ : Shape := ⟨0, ![]⟩

class Facts : Prop where
  bcast_S_S100000x133 : S_.BroadcastsInDim S100000x133 (![] : Fin 0 → Fin S100000x133.rank)
  reducesTo_S100000x133_S_d0_1 : S100000x133.ReducesTo [0, 1] S_
  h_S_ : 0 < S_.numel
  bcast_S_S200000x147 : S_.BroadcastsInDim S200000x147 (![] : Fin 0 → Fin S200000x147.rank)
  reducesTo_S200000x147_S_d0_1 : S200000x147.ReducesTo [0, 1] S_
  bcast_S_S147x300 : S_.BroadcastsInDim S147x300 (![] : Fin 0 → Fin S147x300.rank)
  reducesTo_S147x300_S_d0_1 : S147x300.ReducesTo [0, 1] S_
  bcast_S_S300x300 : S_.BroadcastsInDim S300x300 (![] : Fin 0 → Fin S300x300.rank)
  reducesTo_S300x300_S_d0_1 : S300x300.ReducesTo [0, 1] S_
  bcast_S_S433x300 : S_.BroadcastsInDim S433x300 (![] : Fin 0 → Fin S433x300.rank)
  reducesTo_S433x300_S_d0_1 : S433x300.ReducesTo [0, 1] S_
  bcast_S_S300 : S_.BroadcastsInDim S300 (![] : Fin 0 → Fin S300.rank)
  reducesTo_S300_S_d0 : S300.ReducesTo [0] S_

variable [Facts]

def fn_part1 {F : FTy → Type} [FloatOps F] (main_arg8 : FVec F S433x300 .f32) (main_arg9 : FVec F S300 .f32) (main_v13 : IVec S_ 1) (main_v16 : IVec S300x300 1) : IVec S_ 1 :=
  let main_c_5 : IVec S_ 1 := constantI S_ 1 1#1
  let main_v17 : IVec S_ 1 := (fun x v => Host.reduce IntOp.andi x v reducesTo_S300x300_S_d0_1 h_S_) main_v16 main_c_5
  let main_v18 : IVec S_ 1 := andi main_v13 main_v17
  let main_v19 : FVec F S433x300 .f32 := Host.absf main_arg8
  let main_cst_6 : FVec F S_ .f32 := constant S_ .f32 0x7F800000#32
  let main_v20 : FVec F S433x300 .f32 := broadcastInDim S433x300 ![] bcast_S_S433x300 main_cst_6
  let main_v21 : IVec S433x300 1 := cmpf .olt main_v19 main_v20
  let main_c_7 : IVec S_ 1 := constantI S_ 1 1#1
  let main_v22 : IVec S_ 1 := (fun x v => Host.reduce IntOp.andi x v reducesTo_S433x300_S_d0_1 h_S_) main_v21 main_c_7
  let main_v23 : IVec S_ 1 := andi main_v18 main_v22
  let main_v24 : FVec F S300 .f32 := Host.absf main_arg9
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  main_v28

def fn {F : FTy → Type} [FloatOps F] (main_arg0 : FVec F S100000x133 .f32) (main_arg1 : FVec F S200000x147 .f32) (main_arg2 : IVec S100000x6 32) (main_arg3 : IVec S200000 32) (main_arg4 : IVec S200000 32) (main_arg5 : IVec S100000 32) (main_arg6 : FVec F S147x300 .f32) (main_arg7 : FVec F S300x300 .f32) (main_arg8 : FVec F S433x300 .f32) (main_arg9 : FVec F S300 .f32) : IVec S_ 1 :=
  let main_v0 : FVec F S100000x133 .f32 := Host.absf main_arg0
  let main_cst : FVec F S_ .f32 := constant S_ .f32 0x7F800000#32
  let main_v1 : FVec F S100000x133 .f32 := broadcastInDim S100000x133 ![] bcast_S_S100000x133 main_cst
  let main_v2 : IVec S100000x133 1 := cmpf .olt main_v0 main_v1
  let main_c : IVec S_ 1 := constantI S_ 1 1#1
  let main_v3 : IVec S_ 1 := (fun x v => Host.reduce IntOp.andi x v reducesTo_S100000x133_S_d0_1 h_S_) main_v2 main_c
  let main_v4 : FVec F S200000x147 .f32 := Host.absf main_arg1
  let main_cst_0 : FVec F S_ .f32 := constant S_ .f32 0x7F800000#32
  let main_v5 : FVec F S200000x147 .f32 := broadcastInDim S200000x147 ![] bcast_S_S200000x147 main_cst_0
  let main_v6 : IVec S200000x147 1 := cmpf .olt main_v4 main_v5
  let main_c_1 : IVec S_ 1 := constantI S_ 1 1#1
  let main_v7 : IVec S_ 1 := (fun x v => Host.reduce IntOp.andi x v reducesTo_S200000x147_S_d0_1 h_S_) main_v6 main_c_1
  let main_v8 : IVec S_ 1 := andi main_v3 main_v7
  let main_v9 : FVec F S147x300 .f32 := Host.absf main_arg6
  let main_cst_2 : FVec F S_ .f32 := constant S_ .f32 0x7F800000#32
  let main_v10 : FVec F S147x300 .f32 := broadcastInDim S147x300 ![] bcast_S_S147x300 main_cst_2
  let main_v11 : IVec S147x300 1 := cmpf .olt main_v9 main_v10
  let main_c_3 : IVec S_ 1 := constantI S_ 1 1#1
  let main_v12 : IVec S_ 1 := (fun x v => Host.reduce IntOp.andi x v reducesTo_S147x300_S_d0_1 h_S_) main_v11 main_c_3
  let main_v13 : IVec S_ 1 := andi main_v8 main_v12
  let main_v14 : FVec F S300x300 .f32 := Host.absf main_arg7
  let main_cst_4 : FVec F S_ .f32 := constant S_ .f32 0x7F800000#32
  let main_v15 : FVec F S300x300 .f32 := broadcastInDim S300x300 ![] bcast_S_S300x300 main_cst_4
  let main_v16 : IVec S300x300 1 := cmpf .olt main_v14 main_v15
  fn_part1 (F := F) main_arg8 main_arg9 main_v13 main_v16
-- ==== Kernel.lean ====
abbrev S100000x133 : Shape := ⟨2, ![100000, 133]⟩
abbrev S200000x147 : Shape := ⟨2, ![200000, 147]⟩
abbrev S100000x6 : Shape := ⟨2, ![100000, 6]⟩
abbrev S200000 : Shape := ⟨1, ![200000]⟩
abbrev S100000 : Shape := ⟨1, ![100000]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S200000x300 : Shape := ⟨2, ![200000, 300]⟩
abbrev S4000x147 : Shape := ⟨2, ![4000, 147]⟩
abbrev S4000x300 : Shape := ⟨2, ![4000, 300]⟩
abbrev S_ : Shape := ⟨0, ![]⟩
abbrev S100000x6x1 : Shape := ⟨3, ![100000, 6, 1]⟩
abbrev S100000x6x300 : Shape := ⟨3, ![100000, 6, 300]⟩
abbrev S100000x300 : Shape := ⟨2, ![100000, 300]⟩
abbrev S200000x1 : Shape := ⟨2, ![200000, 1]⟩
abbrev S133x300 : Shape := ⟨2, ![133, 300]⟩
abbrev S1x300 : Shape := ⟨2, ![1, 300]⟩
abbrev S2000x133 : Shape := ⟨2, ![2000, 133]⟩
abbrev S2000x300 : Shape := ⟨2, ![2000, 300]⟩
abbrev S100000x1 : Shape := ⟨2, ![100000, 1]⟩
abbrev S4000 : Shape := ⟨1, ![4000]⟩
abbrev S4000x1 : Shape := ⟨2, ![4000, 1]⟩

abbrev nBuf : Space → Nat
  | .hbm => 113
  | .vmem => 30
  | .smem => 0
  | _ => 0

abbrev bufTy : (tb : Table) → Fin (tcTables nBuf tb) → BufTy
  | .hbm, ⟨0, _⟩ => ⟨S100000x133, .f32⟩
  | .hbm, ⟨1, _⟩ => ⟨S200000x147, .f32⟩
  | .hbm, ⟨2, _⟩ => ⟨S100000x6, .i32⟩
  | .hbm, ⟨3, _⟩ => ⟨S200000, .i32⟩
  | .hbm, ⟨4, _⟩ => ⟨S200000, .i32⟩
  | .hbm, ⟨5, _⟩ => ⟨S100000, .i32⟩
  | .hbm, ⟨6, _⟩ => ⟨S147x300, .f32⟩
  | .hbm, ⟨7, _⟩ => ⟨S300x300, .f32⟩
  | .hbm, ⟨8, _⟩ => ⟨S433x300, .f32⟩
  | .hbm, ⟨9, _⟩ => ⟨S300, .f32⟩
  | .hbm, ⟨10, _⟩ => ⟨S200000x300, .f32⟩
  | .hbm, ⟨11, _⟩ => ⟨S200000x300, .bf16⟩
  | .hbm, ⟨12, _⟩ => ⟨S_, .i32⟩
  | .hbm, ⟨13, _⟩ => ⟨S100000x6, .i32⟩
  | .hbm, ⟨14, _⟩ => ⟨S100000x6, .i1⟩
  | .hbm, ⟨15, _⟩ => ⟨S_, .i32⟩
  | .hbm, ⟨16, _⟩ => ⟨S100000x6, .i32⟩
  | .hbm, ⟨17, _⟩ => ⟨S100000x6, .i32⟩
  | .hbm, ⟨18, _⟩ => ⟨S100000x6, .i32⟩
  | .hbm, ⟨19, _⟩ => ⟨S100000x6x1, .i32⟩
  | .hbm, ⟨20, _⟩ => ⟨S100000x6x300, .bf16⟩
  | .hbm, ⟨21, _⟩ => ⟨S100000x6x300, .f32⟩
  | .hbm, ⟨22, _⟩ => ⟨S_, .f32⟩
  | .hbm, ⟨23, _⟩ => ⟨S100000x300, .f32⟩
  | .hbm, ⟨24, _⟩ => ⟨S_, .i32⟩
  | .hbm, ⟨25, _⟩ => ⟨S200000, .i32⟩
  | .hbm, ⟨26, _⟩ => ⟨S200000, .i1⟩
  | .hbm, ⟨27, _⟩ => ⟨S_, .i32⟩
  | .hbm, ⟨28, _⟩ => ⟨S200000, .i32⟩
  | .hbm, ⟨29, _⟩ => ⟨S200000, .i32⟩
  | .hbm, ⟨30, _⟩ => ⟨S200000, .i32⟩
  | .hbm, ⟨31, _⟩ => ⟨S200000x1, .i32⟩
  | .hbm, ⟨32, _⟩ => ⟨S200000x300, .bf16⟩
  | .hbm, ⟨33, _⟩ => ⟨S200000x300, .f32⟩
  | .hbm, ⟨34, _⟩ => ⟨S_, .i32⟩
  | .hbm, ⟨35, _⟩ => ⟨S200000, .i32⟩
  | .hbm, ⟨36, _⟩ => ⟨S200000, .i1⟩
  | .hbm, ⟨37, _⟩ => ⟨S_, .i32⟩
  | .hbm, ⟨38, _⟩ => ⟨S200000, .i32⟩
  | .hbm, ⟨39, _⟩ => ⟨S200000, .i32⟩
  | .hbm, ⟨40, _⟩ => ⟨S200000, .i32⟩
  | .hbm, ⟨41, _⟩ => ⟨S200000x1, .i32⟩
  | .hbm, ⟨42, _⟩ => ⟨S200000x300, .f32⟩
  | .hbm, ⟨43, _⟩ => ⟨S200000x300, .f32⟩
  | .hbm, ⟨44, _⟩ => ⟨S200000x300, .bf16⟩
  | .hbm, ⟨45, _⟩ => ⟨S200000x300, .bf16⟩
  | .hbm, ⟨46, _⟩ => ⟨S_, .i32⟩
  | .hbm, ⟨47, _⟩ => ⟨S100000x6, .i32⟩
  | .hbm, ⟨48, _⟩ => ⟨S100000x6, .i1⟩
  | .hbm, ⟨49, _⟩ => ⟨S_, .i32⟩
  | .hbm, ⟨50, _⟩ => ⟨S100000x6, .i32⟩
  | .hbm, ⟨51, _⟩ => ⟨S100000x6, .i32⟩
  | .hbm, ⟨52, _⟩ => ⟨S100000x6, .i32⟩
  | .hbm, ⟨53, _⟩ => ⟨S100000x6x1, .i32⟩
  | .hbm, ⟨54, _⟩ => ⟨S100000x6x300, .bf16⟩
  | .hbm, ⟨55, _⟩ => ⟨S100000x6x300, .f32⟩
  | .hbm, ⟨56, _⟩ => ⟨S_, .f32⟩
  | .hbm, ⟨57, _⟩ => ⟨S100000x300, .f32⟩
  | .hbm, ⟨58, _⟩ => ⟨S_, .i32⟩
  | .hbm, ⟨59, _⟩ => ⟨S200000, .i32⟩
  | .hbm, ⟨60, _⟩ => ⟨S200000, .i1⟩
  | .hbm, ⟨61, _⟩ => ⟨S_, .i32⟩
  | .hbm, ⟨62, _⟩ => ⟨S200000, .i32⟩
  | .hbm, ⟨63, _⟩ => ⟨S200000, .i32⟩
  | .hbm, ⟨64, _⟩ => ⟨S200000, .i32⟩
  | .hbm, ⟨65, _⟩ => ⟨S200000x1, .i32⟩
  | .hbm, ⟨66, _⟩ => ⟨S200000x300, .bf16⟩
  | .hbm, ⟨67, _⟩ => ⟨S200000x300, .f32⟩
  | .hbm, ⟨68, _⟩ => ⟨S_, .i32⟩
  | .hbm, ⟨69, _⟩ => ⟨S200000, .i32⟩
  | .hbm, ⟨70, _⟩ => ⟨S200000, .i1⟩
  | .hbm, ⟨71, _⟩ => ⟨S_, .i32⟩
  | .hbm, ⟨72, _⟩ => ⟨S200000, .i32⟩
  | .hbm, ⟨73, _⟩ => ⟨S200000, .i32⟩
  | .hbm, ⟨74, _⟩ => ⟨S200000, .i32⟩
  | .hbm, ⟨75, _⟩ => ⟨S200000x1, .i32⟩
  | .hbm, ⟨76, _⟩ => ⟨S200000x300, .f32⟩
  | .hbm, ⟨77, _⟩ => ⟨S200000x300, .f32⟩
  | .hbm, ⟨78, _⟩ => ⟨S200000x300, .bf16⟩
  | .hbm, ⟨79, _⟩ => ⟨S200000x300, .bf16⟩
  | .hbm, ⟨80, _⟩ => ⟨S_, .i32⟩
  | .hbm, ⟨81, _⟩ => ⟨S100000x6, .i32⟩
  | .hbm, ⟨82, _⟩ => ⟨S100000x6, .i1⟩
  | .hbm, ⟨83, _⟩ => ⟨S_, .i32⟩
  | .hbm, ⟨84, _⟩ => ⟨S100000x6, .i32⟩
  | .hbm, ⟨85, _⟩ => ⟨S100000x6, .i32⟩
  | .hbm, ⟨86, _⟩ => ⟨S100000x6, .i32⟩
  | .hbm, ⟨87, _⟩ => ⟨S100000x6x1, .i32⟩
  | .hbm, ⟨88, _⟩ => ⟨S100000x6x300, .bf16⟩
  | .hbm, ⟨89, _⟩ => ⟨S100000x6x300, .f32⟩
  | .hbm, ⟨90, _⟩ => ⟨S_, .f32⟩
  | .hbm, ⟨91, _⟩ => ⟨S100000x300, .f32⟩
  | .hbm, ⟨92, _⟩ => ⟨S100000x300, .bf16⟩
  | .hbm, ⟨93, _⟩ => ⟨S133x300, .f32⟩
  | .hbm, ⟨94, _⟩ => ⟨S300x300, .f32⟩
  | .hbm, ⟨95, _⟩ => ⟨S1x300, .f32⟩
  | .hbm, ⟨96, _⟩ => ⟨S100000x300, .f32⟩
  | .hbm, ⟨97, _⟩ => ⟨S_, .f32⟩
  | .hbm, ⟨98, _⟩ => ⟨S4000x300, .f32⟩
  | .hbm, ⟨99, _⟩ => ⟨S100000x1, .i32⟩
  | .hbm, ⟨100, _⟩ => ⟨S4000x300, .f32⟩
  | .hbm, ⟨101, _⟩ => ⟨S_, .f32⟩
  | .hbm, ⟨102, _⟩ => ⟨S100000, .f32⟩
  | .hbm, ⟨103, _⟩ => ⟨S_, .f32⟩
  | .hbm, ⟨104, _⟩ => ⟨S4000, .f32⟩
  | .hbm, ⟨105, _⟩ => ⟨S100000x1, .i32⟩
  | .hbm, ⟨106, _⟩ => ⟨S4000, .f32⟩
  | .hbm, ⟨107, _⟩ => ⟨S_, .f32⟩
  | .hbm, ⟨108, _⟩ => ⟨S4000, .f32⟩
  | .hbm, ⟨109, _⟩ => ⟨S4000, .f32⟩
  | .hbm, ⟨110, _⟩ => ⟨S4000x1, .f32⟩
  | .hbm, ⟨111, _⟩ => ⟨S4000x300, .f32⟩
  | .hbm, ⟨112, _⟩ => ⟨S4000x300, .f32⟩
  | .local _ .vmem, ⟨0, _⟩ => ⟨S4000x147, .f32⟩
  | .local _ .vmem, ⟨1, _⟩ => ⟨S4000x147, .f32⟩
  | .local _ .vmem, ⟨2, _⟩ => ⟨S147x300, .f32⟩
  | .local _ .vmem, ⟨3, _⟩ => ⟨S4000x300, .f32⟩
  | .local _ .vmem, ⟨4, _⟩ => ⟨S4000x300, .f32⟩
  | .local _ .vmem, ⟨5, _⟩ => ⟨S4000x300, .bf16⟩
  | .local _ .vmem, ⟨6, _⟩ => ⟨S4000x300, .bf16⟩
  | .local _ .vmem, ⟨7, _⟩ => ⟨S4000x300, .bf16⟩
  | .local _ .vmem, ⟨8, _⟩ => ⟨S4000x300, .bf16⟩
  | .local _ .vmem, ⟨9, _⟩ => ⟨S4000x300, .f32⟩
  | .local _ .vmem, ⟨10, _⟩ => ⟨S4000x300, .f32⟩
  | .local _ .vmem, ⟨11, _⟩ => ⟨S300x300, .f32⟩
  | .local _ .vmem, ⟨12, _⟩ => ⟨S4000x300, .bf16⟩
  | .local _ .vmem, ⟨13, _⟩ => ⟨S4000x300, .bf16⟩
  | .local _ .vmem, ⟨14, _⟩ => ⟨S4000x300, .bf16⟩
  | .local _ .vmem, ⟨15, _⟩ => ⟨S4000x300, .bf16⟩
  | .local _ .vmem, ⟨16, _⟩ => ⟨S4000x300, .f32⟩
  | .local _ .vmem, ⟨17, _⟩ => ⟨S4000x300, .f32⟩
  | .local _ .vmem, ⟨18, _⟩ => ⟨S300x300, .f32⟩
  | .local _ .vmem, ⟨19, _⟩ => ⟨S4000x300, .bf16⟩
  | .local _ .vmem, ⟨20, _⟩ => ⟨S4000x300, .bf16⟩
  | .local _ .vmem, ⟨21, _⟩ => ⟨S2000x133, .f32⟩
  | .local _ .vmem, ⟨22, _⟩ => ⟨S2000x133, .f32⟩
  | .local _ .vmem, ⟨23, _⟩ => ⟨S2000x300, .bf16⟩
  | .local _ .vmem, ⟨24, _⟩ => ⟨S2000x300, .bf16⟩
  | .local _ .vmem, ⟨25, _⟩ => ⟨S133x300, .f32⟩
  | .local _ .vmem, ⟨26, _⟩ => ⟨S300x300, .f32⟩
  | .local _ .vmem, ⟨27, _⟩ => ⟨S1x300, .f32⟩
  | .local _ .vmem, ⟨28, _⟩ => ⟨S2000x300, .f32⟩
  | .local _ .vmem, ⟨29, _⟩ => ⟨S2000x300, .f32⟩
  | _, _ => ⟨S100000x133, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_10 : Ref sig .tc := ⟨.hbm, 68, rfl⟩
abbrev main_v45 : Ref sig .tc := ⟨.hbm, 69, rfl⟩
abbrev main_v46 : Ref sig .tc := ⟨.hbm, 70, rfl⟩
abbrev main_c_11 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_12 : Ref sig .tc := ⟨.hbm, 80, rfl⟩
abbrev main_v55 : Ref sig .tc := ⟨.hbm, 81, rfl⟩
abbrev main_v56 : Ref sig .tc := ⟨.hbm, 82, rfl⟩
abbrev main_c_13 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_15 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_16 : Ref sig .tc := ⟨.hbm, 101, rfl⟩
abbrev main_v72 : Ref sig .tc := ⟨.hbm, 102, rfl⟩
abbrev main_cst_17 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_18 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x147 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S147x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x300 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x300 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x300 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x300 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S300x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x300 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x300 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x300 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S300x300 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x300 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x133 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x300 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S133x300 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S300x300 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x300 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x300 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  inb_S4000x147_S4000x147_0_0 : ∀ a, (![0, 0] : Fin 2 → Nat) a + S4000x147.size a ≤ S4000x147.size a
  h_S4000x147 : 0 < S4000x147.numel
  bitsLt_bf16_f32 : FTy.bits .bf16 < FTy.bits .f32
  inb_S147x300_S147x300_0_0 : ∀ a, (![0, 0] : Fin 2 → Nat) a + S147x300.size a ≤ S147x300.size a
  h_S147x300 : 0 < S147x300.numel
  inb_S4000x300_S4000x300_0_0 : ∀ a, (![0, 0] : Fin 2 → Nat) a + S4000x300.size a ≤ S4000x300.size a
  h_S4000x300 : 0 < S4000x300.numel
  packedbf16_S4000x300_S4000x300_0_0 : (Rect.unit (s := S4000x300) ![0, 0] S4000x300.size inb_S4000x300_S4000x300_0_0).PackedRows (EltTy.packing .bf16)
  bcast_S_S100000x6 : S_.BroadcastsInDim S100000x6 (![] : Fin 0 → Fin S100000x6.rank)
  bcast_S100000x6_S100000x6x1_0_1 : S100000x6.BroadcastsInDim S100000x6x1 (![0, 1] : Fin 2 → Fin S100000x6x1.rank)
  reducesTo_S100000x6x300_S100000x300_d1 : S100000x6x300.ReducesTo [1] S100000x300
  h_S_ : 0 < S_.numel
  bcast_S_S200000 : S_.BroadcastsInDim S200000 (![] : Fin 0 → Fin S200000.rank)
  bcast_S200000_S200000x1_0 : S200000.BroadcastsInDim S200000x1 (![0] : Fin 1 → Fin S200000x1.rank)
  shapeCasts_S4000x300_S4000x300 : S4000x300.ShapeCasts S4000x300
  inb_S300x300_S300x300_0_0 : ∀ a, (![0, 0] : Fin 2 → Nat) a + S300x300.size a ≤ S300x300.size a
  h_S300x300 : 0 < S300x300.numel
  slices_S433x300_S133x300_0_0 : S433x300.Slices ![0, 0] S133x300
  slices_S433x300_S300x300_133_0 : S433x300.Slices ![133, 0] S300x300
  shapeCasts_S300_S1x300 : S300.ShapeCasts S1x300
  inb_S2000x133_S2000x133_0_0 : ∀ a, (![0, 0] : Fin 2 → Nat) a + S2000x133.size a ≤ S2000x133.size a
  h_S2000x133 : 0 < S2000x133.numel
  inb_S2000x300_S2000x300_0_0 : ∀ a, (![0, 0] : Fin 2 → Nat) a + S2000x300.size a ≤ S2000x300.size a
  h_S2000x300 : 0 < S2000x300.numel
  shapeCasts_S2000x300_S2000x300 : S2000x300.ShapeCasts S2000x300
  inb_S133x300_S133x300_0_0 : ∀ a, (![0, 0] : Fin 2 → Nat) a + S133x300.size a ≤ S133x300.size a
  h_S133x300 : 0 < S133x300.numel
  shapeCasts_S133x300_S133x300 : S133x300.ShapeCasts S133x300
  shapeCasts_S300x300_S300x300 : S300x300.ShapeCasts S300x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2000x300 : S1x300.Broadcasts S2000x300
  bcast_S_S4000x300 : S_.BroadcastsInDim S4000x300 (![] : Fin 0 → Fin S4000x300.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S4000 : S_.BroadcastsInDim S4000 (![] : Fin 0 → Fin S4000.rank)
  bcast_S4000_S4000x1_0 : S4000.BroadcastsInDim S4000x1 (![0] : Fin 1 → Fin S4000x1.rank)
  bcast_S4000x1_S4000x300_0_1 : S4000x1.BroadcastsInDim S4000x300 (![0, 1] : Fin 2 → Fin S4000x300.rank)
  dot_S4000x147_S147x300_S4000x300_1_0_0_1_n_n_wf : DotDims.WF S4000x147 S147x300 S4000x300 [1] [0] [0] [1] [] []
  gather_S200000x300_S100000x6x1_S100000x6x300_2_0_n_n_0_2_1300_wf : GatherDims.WF S200000x300 S100000x6x1 S100000x6x300 [2] [0] [] [0] [] 2 ![1, 300]
  gather_S200000x300_S200000x1_S200000x300_1_0_n_n_0_1_1300_wf : GatherDims.WF S200000x300 S200000x1 S200000x300 [1] [0] [] [0] [] 1 ![1, 300]
  gather_S100000x300_S200000x1_S200000x300_1_0_n_n_0_1_1300_wf : GatherDims.WF S100000x300 S200000x1 S200000x300 [1] [0] [] [0] [] 1 ![1, 300]
  dot_S4000x300_S300x300_S4000x300_1_0_0_1_n_n_wf : DotDims.WF S4000x300 S300x300 S4000x300 [1] [0] [0] [1] [] []
  dot_S2000x133_S133x300_S2000x300_1_0_0_1_n_n_wf : DotDims.WF S2000x133 S133x300 S2000x300 [1] [0] [0] [1] [] []
  dot_S2000x300_S300x300_S2000x300_1_0_0_1_n_n_wf : DotDims.WF S2000x300 S300x300 S2000x300 [1] [0] [0] [1] [] []
  scatter_S4000x300_S100000x1_S100000x300_1_0_0_1_wf : ScatterDims.WF S4000x300 S100000x1 S100000x300 [1] [0] [0] 1
  scatter_S4000_S100000x1_S100000_n_0_0_1_wf : ScatterDims.WF S4000 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x147.size a ≤ S200000x147.size a
  hwx0_0 : ∀ i : grid0.Coords, EltTy.bits .f32 = 32 ∨ (Rect.block (s := S200000x147) S4000x147.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S147x300.size a ≤ S147x300.size a
  hwx0_1 : ∀ i : grid0.Coords, EltTy.bits .f32 = 32 ∨ (Rect.block (s := S147x300) S147x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x300.size a ≤ S200000x300.size a
  hwx0_2 : ∀ i : grid0.Coords, EltTy.bits .f32 = 32 ∨ (Rect.block (s := S200000x300) S4000x300.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x300.size a ≤ S200000x300.size a
  hwx0_3 : ∀ i : grid0.Coords, EltTy.bits .bf16 = 32 ∨ (Rect.block (s := S200000x300) S4000x300.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x300.size a ≤ S200000x300.size a
  hwx1_0 : ∀ i : grid1.Coords, EltTy.bits .bf16 = 32 ∨ (Rect.block (s := S200000x300) S4000x300.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x300.size a ≤ S200000x300.size a
  hwx1_1 : ∀ i : grid1.Coords, EltTy.bits .f32 = 32 ∨ (Rect.block (s := S200000x300) S4000x300.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S300x300.size a ≤ S300x300.size a
  hwx1_2 : ∀ i : grid1.Coords, EltTy.bits .f32 = 32 ∨ (Rect.block (s := S300x300) S300x300.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x300.size a ≤ S200000x300.size a
  hwx1_3 : ∀ i : grid1.Coords, EltTy.bits .bf16 = 32 ∨ (Rect.block (s := S200000x300) S4000x300.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x300.size a ≤ S200000x300.size a
  hwx2_0 : ∀ i : grid2.Coords, EltTy.bits .bf16 = 32 ∨ (Rect.block (s := S200000x300) S4000x300.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x300.size a ≤ S200000x300.size a
  hwx2_1 : ∀ i : grid2.Coords, EltTy.bits .f32 = 32 ∨ (Rect.block (s := S200000x300) S4000x300.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S300x300.size a ≤ S300x300.size a
  hwx2_2 : ∀ i : grid2.Coords, EltTy.bits .f32 = 32 ∨ (Rect.block (s := S300x300) S300x300.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x300.size a ≤ S200000x300.size a
  hwx2_3 : ∀ i : grid2.Coords, EltTy.bits .bf16 = 32 ∨ (Rect.block (s := S200000x300) S4000x300.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x133.size a ≤ S100000x133.size a
  hwx3_0 : ∀ i : grid3.Coords, EltTy.bits .f32 = 32 ∨ (Rect.block (s := S100000x133) S2000x133.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x300.size a ≤ S100000x300.size a
  hwx3_1 : ∀ i : grid3.Coords, EltTy.bits .bf16 = 32 ∨ (Rect.block (s := S100000x300) S2000x300.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S133x300.size a ≤ S133x300.size a
  hwx3_2 : ∀ i : grid3.Coords, EltTy.bits .f32 = 32 ∨ (Rect.block (s := S133x300) S133x300.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S300x300.size a ≤ S300x300.size a
  hwx3_3 : ∀ i : grid3.Coords, EltTy.bits .f32 = 32 ∨ (Rect.block (s := S300x300) S300x300.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x300.size a ≤ S1x300.size a
  hwx3_4 : ∀ i : grid3.Coords, EltTy.bits .f32 = 32 ∨ (Rect.block (s := S1x300) S1x300.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x300.size a ≤ S100000x300.size a
  hwx3_5 : ∀ i : grid3.Coords, EltTy.bits .f32 = 32 ∨ (Rect.block (s := S100000x300) S2000x300.size (cc3_transform_5 i) (hinb3_5 i)).WholeWords (EltTy.packing .f32)

variable [Facts₀]

def dot_S4000x147_S147x300_S4000x300_1_0_0_1_n_n : DotDims S4000x147 S147x300 S4000x300 where
  lhsContracting := [1]
  rhsContracting := [0]
  lhsNonContracting := [0]
  rhsNonContracting := [1]
  lhsBatch := []
  rhsBatch := []
  wf := dot_S4000x147_S147x300_S4000x300_1_0_0_1_n_n_wf
def gather_S200000x300_S100000x6x1_S100000x6x300_2_0_n_n_0_2_1300 : GatherDims S200000x300 S100000x6x1 S100000x6x300 where
  offsetDims := [2]
  collapsedSliceDims := [0]
  operandBatchingDims := []
  startIndicesBatchingDims := []
  startIndexMap := [0]
  indexVectorDim := 2
  sliceSizes := ![1, 300]
  wf := gather_S200000x300_S100000x6x1_S100000x6x300_2_0_n_n_0_2_1300_wf
def gather_S200000x300_S200000x1_S200000x300_1_0_n_n_0_1_1300 : GatherDims S200000x300 S200000x1 S200000x300 where
  offsetDims := [1]
  collapsedSliceDims := [0]
  operandBatchingDims := []
  startIndicesBatchingDims := []
  startIndexMap := [0]
  indexVectorDim := 1
  sliceSizes := ![1, 300]
  wf := gather_S200000x300_S200000x1_S200000x300_1_0_n_n_0_1_1300_wf
def gather_S100000x300_S200000x1_S200000x300_1_0_n_n_0_1_1300 : GatherDims S100000x300 S200000x1 S200000x300 where
  offsetDims := [1]
  collapsedSliceDims := [0]
  operandBatchingDims := []
  startIndicesBatchingDims := []
  startIndexMap := [0]
  indexVectorDim := 1
  sliceSizes := ![1, 300]
  wf := gather_S100000x300_S200000x1_S200000x300_1_0_n_n_0_1_1300_wf
def dot_S4000x300_S300x300_S4000x300_1_0_0_1_n_n : DotDims S4000x300 S300x300 S4000x300 where
  lhsContracting := [1]
  rhsContracting := [0]
  lhsNonContracting := [0]
  rhsNonContracting := [1]
  lhsBatch := []
  rhsBatch := []
  wf := dot_S4000x300_S300x300_S4000x300_1_0_0_1_n_n_wf
def dot_S2000x133_S133x300_S2000x300_1_0_0_1_n_n : DotDims S2000x133 S133x300 S2000x300 where
  lhsContracting := [1]
  rhsContracting := [0]
  lhsNonContracting := [0]
  rhsNonContracting := [1]
  lhsBatch := []
  rhsBatch := []
  wf := dot_S2000x133_S133x300_S2000x300_1_0_0_1_n_n_wf
def dot_S2000x300_S300x300_S2000x300_1_0_0_1_n_n : DotDims S2000x300 S300x300 S2000x300 where
  lhsContracting := [1]
  rhsContracting := [0]
  lhsNonContracting := [0]
  rhsNonContracting := [1]
  lhsBatch := []
  rhsBatch := []
  wf := dot_S2000x300_S300x300_S2000x300_1_0_0_1_n_n_wf
def scatter_S4000x300_S100000x1_S100000x300_1_0_0_1 : ScatterDims S4000x300 S100000x1 S100000x300 where
  updateWindowDims := [1]
  insertedWindowDims := [0]
  scatterDimsToOperandDims := [0]
  indexVectorDim := 1
  wf := scatter_S4000x300_S100000x1_S100000x300_1_0_0_1_wf
def scatter_S4000_S100000x1_S100000_n_0_0_1 : ScatterDims S4000 S100000x1 S100000 where
  updateWindowDims := []
  insertedWindowDims := [0]
  scatterDimsToOperandDims := [0]
  indexVectorDim := 1
  wf := scatter_S4000_S100000x1_S100000_n_0_0_1_wf

abbrev win0_0 : Pipeline.Window sig grid0 :=
  Pipeline.Window.ofSpec (Memref.whole main_arg1) S4000x147.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S147x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4000x300.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S4000x300.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S4000x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S4000x300.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S300x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S4000x300.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v53) S4000x300.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0_0) S4000x300.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S300x300.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S4000x300.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg0) S2000x133.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S2000x300.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v65) S133x300.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S300x300.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x300.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S2000x300.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x133 : Shape := ⟨2, ![100000, 133]⟩
abbrev S200000x147 : Shape := ⟨2, ![200000, 147]⟩
abbrev S100000x6 : Shape := ⟨2, ![100000, 6]⟩
abbrev S200000 : Shape := ⟨1, ![200000]⟩
abbrev S100000 : Shape := ⟨1, ![100000]⟩
abbrev S147x300 : Shape := ⟨2, ![147, 300]⟩
abbrev S300x300 : Shape := ⟨2, ![300, 300]⟩
abbrev S433x300 : Shape := ⟨2, ![433, 300]⟩
abbrev S300 : Shape := ⟨1, ![300]⟩
abbrev S200000x300 : Shape := ⟨2, ![200000, 300]⟩
abbrev S_ : Shape := ⟨0, ![]⟩
abbrev S100000x6x1 : Shape := ⟨3, ![100000, 6, 1]⟩
abbrev S100000x6x300 : Shape := ⟨3, ![100000, 6, 300]⟩
abbrev S100000x300 : Shape := ⟨2, ![100000, 300]⟩
abbrev S200000x1 : Shape := ⟨2, ![200000, 1]⟩
abbrev S100000x433 : Shape := ⟨2, ![100000, 433]⟩
abbrev S1x300 : Shape := ⟨2, ![1, 300]⟩
abbrev S4000x300 : Shape := ⟨2, ![4000, 300]⟩
abbrev S100000x1 : Shape := ⟨2, ![100000, 1]⟩
abbrev S4000 : Shape := ⟨1, ![4000]⟩
abbrev S4000x1 : Shape := ⟨2, ![4000, 1]⟩

abbrev nBuf : Space → Nat
  | .hbm => 119
  | .vmem => 0
  | .smem => 0
  | _ => 0

abbrev bufTy : (tb : Table) → Fin (tcTables nBuf tb) → BufTy
  | .hbm, ⟨0, _⟩ => ⟨S100000x133, .f32⟩
  | .hbm, ⟨1, _⟩ => ⟨S200000x147, .f32⟩
  | .hbm, ⟨2, _⟩ => ⟨S100000x6, .i32⟩
  | .hbm, ⟨3, _⟩ => ⟨S200000, .i32⟩
  | .hbm, ⟨4, _⟩ => ⟨S200000, .i32⟩
  | .hbm, ⟨5, _⟩ => ⟨S100000, .i32⟩
  | .hbm, ⟨6, _⟩ => ⟨S147x300, .f32⟩
  | .hbm, ⟨7, _⟩ => ⟨S300x300, .f32⟩
  | .hbm, ⟨8, _⟩ => ⟨S433x300, .f32⟩
  | .hbm, ⟨9, _⟩ => ⟨S300, .f32⟩
  | .hbm, ⟨10, _⟩ => ⟨S200000x300, .f32⟩
  | .hbm, ⟨11, _⟩ => ⟨S_, .f32⟩
  | .hbm, ⟨12, _⟩ => ⟨S200000x300, .f32⟩
  | .hbm, ⟨13, _⟩ => ⟨S200000x300, .f32⟩
  | .hbm, ⟨14, _⟩ => ⟨S_, .i32⟩
  | .hbm, ⟨15, _⟩ => ⟨S100000x6, .i32⟩
  | .hbm, ⟨16, _⟩ => ⟨S100000x6, .i1⟩
  | .hbm, ⟨17, _⟩ => ⟨S_, .i32⟩
  | .hbm, ⟨18, _⟩ => ⟨S100000x6, .i32⟩
  | .hbm, ⟨19, _⟩ => ⟨S100000x6, .i32⟩
  | .hbm, ⟨20, _⟩ => ⟨S100000x6, .i32⟩
  | .hbm, ⟨21, _⟩ => ⟨S100000x6x1, .i32⟩
  | .hbm, ⟨22, _⟩ => ⟨S100000x6x300, .f32⟩
  | .hbm, ⟨23, _⟩ => ⟨S_, .f32⟩
  | .hbm, ⟨24, _⟩ => ⟨S100000x300, .f32⟩
  | .hbm, ⟨25, _⟩ => ⟨S_, .i32⟩
  | .hbm, ⟨26, _⟩ => ⟨S200000, .i32⟩
  | .hbm, ⟨27, _⟩ => ⟨S200000, .i1⟩
  | .hbm, ⟨28, _⟩ => ⟨S_, .i32⟩
  | .hbm, ⟨29, _⟩ => ⟨S200000, .i32⟩
  | .hbm, ⟨30, _⟩ => ⟨S200000, .i32⟩
  | .hbm, ⟨31, _⟩ => ⟨S200000, .i32⟩
  | .hbm, ⟨32, _⟩ => ⟨S200000x1, .i32⟩
  | .hbm, ⟨33, _⟩ => ⟨S200000x300, .f32⟩
  | .hbm, ⟨34, _⟩ => ⟨S_, .i32⟩
  | .hbm, ⟨35, _⟩ => ⟨S200000, .i32⟩
  | .hbm, ⟨36, _⟩ => ⟨S200000, .i1⟩
  | .hbm, ⟨37, _⟩ => ⟨S_, .i32⟩
  | .hbm, ⟨38, _⟩ => ⟨S200000, .i32⟩
  | .hbm, ⟨39, _⟩ => ⟨S200000, .i32⟩
  | .hbm, ⟨40, _⟩ => ⟨S200000, .i32⟩
  | .hbm, ⟨41, _⟩ => ⟨S200000x1, .i32⟩
  | .hbm, ⟨42, _⟩ => ⟨S200000x300, .f32⟩
  | .hbm, ⟨43, _⟩ => ⟨S200000x300, .f32⟩
  | .hbm, ⟨44, _⟩ => ⟨S200000x300, .f32⟩
  | .hbm, ⟨45, _⟩ => ⟨S200000x300, .f32⟩
  | .hbm, ⟨46, _⟩ => ⟨S_, .f32⟩
  | .hbm, ⟨47, _⟩ => ⟨S200000x300, .f32⟩
  | .hbm, ⟨48, _⟩ => ⟨S200000x300, .f32⟩
  | .hbm, ⟨49, _⟩ => ⟨S_, .i32⟩
  | .hbm, ⟨50, _⟩ => ⟨S100000x6, .i32⟩
  | .hbm, ⟨51, _⟩ => ⟨S100000x6, .i1⟩
  | .hbm, ⟨52, _⟩ => ⟨S_, .i32⟩
  | .hbm, ⟨53, _⟩ => ⟨S100000x6, .i32⟩
  | .hbm, ⟨54, _⟩ => ⟨S100000x6, .i32⟩
  | .hbm, ⟨55, _⟩ => ⟨S100000x6, .i32⟩
  | .hbm, ⟨56, _⟩ => ⟨S100000x6x1, .i32⟩
  | .hbm, ⟨57, _⟩ => ⟨S100000x6x300, .f32⟩
  | .hbm, ⟨58, _⟩ => ⟨S_, .f32⟩
  | .hbm, ⟨59, _⟩ => ⟨S100000x300, .f32⟩
  | .hbm, ⟨60, _⟩ => ⟨S_, .i32⟩
  | .hbm, ⟨61, _⟩ => ⟨S200000, .i32⟩
  | .hbm, ⟨62, _⟩ => ⟨S200000, .i1⟩
  | .hbm, ⟨63, _⟩ => ⟨S_, .i32⟩
  | .hbm, ⟨64, _⟩ => ⟨S200000, .i32⟩
  | .hbm, ⟨65, _⟩ => ⟨S200000, .i32⟩
  | .hbm, ⟨66, _⟩ => ⟨S200000, .i32⟩
  | .hbm, ⟨67, _⟩ => ⟨S200000x1, .i32⟩
  | .hbm, ⟨68, _⟩ => ⟨S200000x300, .f32⟩
  | .hbm, ⟨69, _⟩ => ⟨S_, .i32⟩
  | .hbm, ⟨70, _⟩ => ⟨S200000, .i32⟩
  | .hbm, ⟨71, _⟩ => ⟨S200000, .i1⟩
  | .hbm, ⟨72, _⟩ => ⟨S_, .i32⟩
  | .hbm, ⟨73, _⟩ => ⟨S200000, .i32⟩
  | .hbm, ⟨74, _⟩ => ⟨S200000, .i32⟩
  | .hbm, ⟨75, _⟩ => ⟨S200000, .i32⟩
  | .hbm, ⟨76, _⟩ => ⟨S200000x1, .i32⟩
  | .hbm, ⟨77, _⟩ => ⟨S200000x300, .f32⟩
  | .hbm, ⟨78, _⟩ => ⟨S200000x300, .f32⟩
  | .hbm, ⟨79, _⟩ => ⟨S200000x300, .f32⟩
  | .hbm, ⟨80, _⟩ => ⟨S200000x300, .f32⟩
  | .hbm, ⟨81, _⟩ => ⟨S_, .f32⟩
  | .hbm, ⟨82, _⟩ => ⟨S200000x300, .f32⟩
  | .hbm, ⟨83, _⟩ => ⟨S200000x300, .f32⟩
  | .hbm, ⟨84, _⟩ => ⟨S_, .i32⟩
  | .hbm, ⟨85, _⟩ => ⟨S100000x6, .i32⟩
  | .hbm, ⟨86, _⟩ => ⟨S100000x6, .i1⟩
  | .hbm, ⟨87, _⟩ => ⟨S_, .i32⟩
  | .hbm, ⟨88, _⟩ => ⟨S100000x6, .i32⟩
  | .hbm, ⟨89, _⟩ => ⟨S100000x6, .i32⟩
  | .hbm, ⟨90, _⟩ => ⟨S100000x6, .i32⟩
  | .hbm, ⟨91, _⟩ => ⟨S100000x6x1, .i32⟩
  | .hbm, ⟨92, _⟩ => ⟨S100000x6x300, .f32⟩
  | .hbm, ⟨93, _⟩ => ⟨S_, .f32⟩
  | .hbm, ⟨94, _⟩ => ⟨S100000x300, .f32⟩
  | .hbm, ⟨95, _⟩ => ⟨S100000x433, .f32⟩
  | .hbm, ⟨96, _⟩ => ⟨S100000x300, .f32⟩
  | .hbm, ⟨97, _⟩ => ⟨S1x300, .f32⟩
  | .hbm, ⟨98, _⟩ => ⟨S100000x300, .f32⟩
  | .hbm, ⟨99, _⟩ => ⟨S100000x300, .f32⟩
  | .hbm, ⟨100, _⟩ => ⟨S_, .f32⟩
  | .hbm, ⟨101, _⟩ => ⟨S100000x300, .f32⟩
  | .hbm, ⟨102, _⟩ => ⟨S100000x300, .f32⟩
  | .hbm, ⟨103, _⟩ => ⟨S_, .f32⟩
  | .hbm, ⟨104, _⟩ => ⟨S4000x300, .f32⟩
  | .hbm, ⟨105, _⟩ => ⟨S100000x1, .i32⟩
  | .hbm, ⟨106, _⟩ => ⟨S4000x300, .f32⟩
  | .hbm, ⟨107, _⟩ => ⟨S_, .f32⟩
  | .hbm, ⟨108, _⟩ => ⟨S100000, .f32⟩
  | .hbm, ⟨109, _⟩ => ⟨S_, .f32⟩
  | .hbm, ⟨110, _⟩ => ⟨S4000, .f32⟩
  | .hbm, ⟨111, _⟩ => ⟨S100000x1, .i32⟩
  | .hbm, ⟨112, _⟩ => ⟨S4000, .f32⟩
  | .hbm, ⟨113, _⟩ => ⟨S_, .f32⟩
  | .hbm, ⟨114, _⟩ => ⟨S4000, .f32⟩
  | .hbm, ⟨115, _⟩ => ⟨S4000, .f32⟩
  | .hbm, ⟨116, _⟩ => ⟨S4000x1, .f32⟩
  | .hbm, ⟨117, _⟩ => ⟨S4000x300, .f32⟩
  | .hbm, ⟨118, _⟩ => ⟨S4000x300, .f32⟩
  | _, _ => ⟨S100000x133, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_cst : Ref sig .tc := ⟨.hbm, 11, rfl⟩
abbrev main_call0_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call1_cst : Ref sig .tc := ⟨.hbm, 46, rfl⟩
abbrev main_call1_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_c_8 : Ref sig .tc := ⟨.hbm, 60, rfl⟩
abbrev main_v36 : Ref sig .tc := ⟨.hbm, 61, rfl⟩
abbrev main_v37 : Ref sig .tc := ⟨.hbm, 62, rfl⟩
abbrev main_c_9 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_10 : Ref sig .tc := ⟨.hbm, 69, rfl⟩
abbrev main_v43 : Ref sig .tc := ⟨.hbm, 70, rfl⟩
abbrev main_v44 : Ref sig .tc := ⟨.hbm, 71, rfl⟩
abbrev main_c_11 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call2_cst : Ref sig .tc := ⟨.hbm, 81, rfl⟩
abbrev main_call2_v0 : Ref sig .tc := ⟨.hbm, 82, rfl⟩
abbrev main_v53 : Ref sig .tc := ⟨.hbm, 83, rfl⟩
abbrev main_c_12 : Ref sig .tc := ⟨.hbm, 84, rfl⟩
abbrev main_v54 : Ref sig .tc := ⟨.hbm, 85, rfl⟩
abbrev main_v55 : Ref sig .tc := ⟨.hbm, 86, rfl⟩
abbrev main_c_13 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_14 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_call3_cst : Ref sig .tc := ⟨.hbm, 100, rfl⟩
abbrev main_call3_v0 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_16 : Ref sig .tc := ⟨.hbm, 107, rfl⟩
abbrev main_v71 : Ref sig .tc := ⟨.hbm, 108, rfl⟩
abbrev main_cst_17 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_18 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩

abbrev nD : Nat := 1
abbrev τ : Topo := Topo.v7x

variable {F : FTy → Type} [FloatOps F]

class Facts₀ : Prop where
  bcast_S_S200000x300 : S_.BroadcastsInDim S200000x300 (![] : Fin 0 → Fin S200000x300.rank)
  bcast_S_S100000x6 : S_.BroadcastsInDim S100000x6 (![] : Fin 0 → Fin S100000x6.rank)
  bcast_S100000x6_S100000x6x1_0_1 : S100000x6.BroadcastsInDim S100000x6x1 (![0, 1] : Fin 2 → Fin S100000x6x1.rank)
  reducesTo_S100000x6x300_S100000x300_d1 : S100000x6x300.ReducesTo [1] S100000x300
  h_S_ : 0 < S_.numel
  bcast_S_S200000 : S_.BroadcastsInDim S200000 (![] : Fin 0 → Fin S200000.rank)
  bcast_S200000_S200000x1_0 : S200000.BroadcastsInDim S200000x1 (![0] : Fin 1 → Fin S200000x1.rank)
  concatenates_S100000x133_S100000x300_S100000x433_d1 : Shape.Concatenates [S100000x133, S100000x300] S100000x433 1
  bcast_S300_S1x300_1 : S300.BroadcastsInDim S1x300 (![1] : Fin 1 → Fin S1x300.rank)
  bcast_S1x300_S100000x300_0_1 : S1x300.BroadcastsInDim S100000x300 (![0, 1] : Fin 2 → Fin S100000x300.rank)
  bcast_S_S100000x300 : S_.BroadcastsInDim S100000x300 (![] : Fin 0 → Fin S100000x300.rank)
  bcast_S_S4000x300 : S_.BroadcastsInDim S4000x300 (![] : Fin 0 → Fin S4000x300.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S4000 : S_.BroadcastsInDim S4000 (![] : Fin 0 → Fin S4000.rank)
  bcast_S4000_S4000x1_0 : S4000.BroadcastsInDim S4000x1 (![0] : Fin 1 → Fin S4000x1.rank)
  bcast_S4000x1_S4000x300_0_1 : S4000x1.BroadcastsInDim S4000x300 (![0, 1] : Fin 2 → Fin S4000x300.rank)
  dot_S200000x147_S147x300_S200000x300_1_0_0_1_n_n_wf : DotDims.WF S200000x147 S147x300 S200000x300 [1] [0] [0] [1] [] []
  gather_S200000x300_S100000x6x1_S100000x6x300_2_0_n_n_0_2_1300_wf : GatherDims.WF S200000x300 S100000x6x1 S100000x6x300 [2] [0] [] [0] [] 2 ![1, 300]
  gather_S200000x300_S200000x1_S200000x300_1_0_n_n_0_1_1300_wf : GatherDims.WF S200000x300 S200000x1 S200000x300 [1] [0] [] [0] [] 1 ![1, 300]
  gather_S100000x300_S200000x1_S200000x300_1_0_n_n_0_1_1300_wf : GatherDims.WF S100000x300 S200000x1 S200000x300 [1] [0] [] [0] [] 1 ![1, 300]
  dot_S200000x300_S300x300_S200000x300_1_0_0_1_n_n_wf : DotDims.WF S200000x300 S300x300 S200000x300 [1] [0] [0] [1] [] []
  dot_S100000x433_S433x300_S100000x300_1_0_0_1_n_n_wf : DotDims.WF S100000x433 S433x300 S100000x300 [1] [0] [0] [1] [] []
  scatter_S4000x300_S100000x1_S100000x300_1_0_0_1_wf : ScatterDims.WF S4000x300 S100000x1 S100000x300 [1] [0] [0] 1
  scatter_S4000_S100000x1_S100000_n_0_0_1_wf : ScatterDims.WF S4000 S100000x1 S100000 [] [0] [0] 1

variable [Facts₀]

def dot_S200000x147_S147x300_S200000x300_1_0_0_1_n_n : DotDims S200000x147 S147x300 S200000x300 where
  lhsContracting := [1]
  rhsContracting := [0]
  lhsNonContracting := [0]
  rhsNonContracting := [1]
  lhsBatch := []
  rhsBatch := []
  wf := dot_S200000x147_S147x300_S200000x300_1_0_0_1_n_n_wf
def gather_S200000x300_S100000x6x1_S100000x6x300_2_0_n_n_0_2_1300 : GatherDims S200000x300 S100000x6x1 S100000x6x300 where
  offsetDims := [2]
  collapsedSliceDims := [0]
  operandBatchingDims := []
  startIndicesBatchingDims := []
  startIndexMap := [0]
  indexVectorDim := 2
  sliceSizes := ![1, 300]
  wf := gather_S200000x300_S100000x6x1_S100000x6x300_2_0_n_n_0_2_1300_wf
def gather_S200000x300_S200000x1_S200000x300_1_0_n_n_0_1_1300 : GatherDims S200000x300 S200000x1 S200000x300 where
  offsetDims := [1]
  collapsedSliceDims := [0]
  operandBatchingDims := []
  startIndicesBatchingDims := []
  startIndexMap := [0]
  indexVectorDim := 1
  sliceSizes := ![1, 300]
  wf := gather_S200000x300_S200000x1_S200000x300_1_0_n_n_0_1_1300_wf
def gather_S100000x300_S200000x1_S200000x300_1_0_n_n_0_1_1300 : GatherDims S100000x300 S200000x1 S200000x300 where
  offsetDims := [1]
  collapsedSliceDims := [0]
  operandBatchingDims := []
  startIndicesBatchingDims := []
  startIndexMap := [0]
  indexVectorDim := 1
  sliceSizes := ![1, 300]
  wf := gather_S100000x300_S200000x1_S200000x300_1_0_n_n_0_1_1300_wf
def dot_S200000x300_S300x300_S200000x300_1_0_0_1_n_n : DotDims S200000x300 S300x300 S200000x300 where
  lhsContracting := [1]
  rhsContracting := [0]
  lhsNonContracting := [0]
  rhsNonContracting := [1]
  lhsBatch := []
  rhsBatch := []
  wf := dot_S200000x300_S300x300_S200000x300_1_0_0_1_n_n_wf
def dot_S100000x433_S433x300_S100000x300_1_0_0_1_n_n : DotDims S100000x433 S433x300 S100000x300 where
  lhsContracting := [1]
  rhsContracting := [0]
  lhsNonContracting := [0]
  rhsNonContracting := [1]
  lhsBatch := []
  rhsBatch := []
  wf := dot_S100000x433_S433x300_S100000x300_1_0_0_1_n_n_wf
def scatter_S4000x300_S100000x1_S100000x300_1_0_0_1 : ScatterDims S4000x300 S100000x1 S100000x300 where
  updateWindowDims := [1]
  insertedWindowDims := [0]
  scatterDimsToOperandDims := [0]
  indexVectorDim := 1
  wf := scatter_S4000x300_S100000x1_S100000x300_1_0_0_1_wf
def scatter_S4000_S100000x1_S100000_n_0_0_1 : ScatterDims S4000 S100000x1 S100000 where
  updateWindowDims := []
  insertedWindowDims := [0]
  scatterDimsToOperandDims := [0]
  indexVectorDim := 1
  wf := scatter_S4000_S100000x1_S100000_n_0_0_1_wf

class Facts : Prop extends Facts₀ where

variable [Facts]
-- ==== Proof.KernelRun.lean ====
/-
  The idealized kernel's run with its result named.

  The program is four grid launches separated by stretches of host operations. The buffer contents at each boundary
  are a fold from the launch memory: a host stretch applies its operations, a launch replaces its arrays by what the
  write-backs of all grid points leave. Every weakly fair execution terminates without a fault in a state whose
  unscoped buffers hold the last boundary's contents; read at the result buffer this names the result, and read at
  the argument buffers it gives the arguments unchanged.
-/
import proofs.«167756_j15530601742850_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer after the last host stretch, on core `c`. -/
abbrev result (c : Dev nD) : Buf (Elt F) ((c.tc : Thread nD τ).loc main_v80) := W8 m ρ c (Proc.devRef .tc main_v80)

set_option backward.isDefEq.respectTransparency.types false in
/-- Every weakly fair execution ends with the result buffer at `result` and the arguments as launched. -/
theorem run : θ_run defs (onTc (τ := τ) (main (F := F))) ⟨m, fun _ => 0, ρ⟩ (fun r => ∀ c : Dev nD,
      r.2.mem ((c.tc : Thread nD τ).loc main_v80) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v80 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.Run

end
-- ==== Proof.LibDenseLayer.lean ====
/-
  A dense graph layer over the extended reals, and a rank-2 matrix product read at an entry.

  The layer: for an adjacency matrix `A` ([N, N]), features `X` ([N, K]), weights `W` ([K, M]), a bias `b` (M
  entries) and a scale `s`, entry (r, c) of the layer's output is
      (∑ j, ((∑ k, A(r,k) · X(k,j)) + s · X(r,j)) · W(j,c)) + b(c):
  the neighbours' features summed and added to the scaled own features, then the linear map and the bias. `rowLayer`
  is the same entry written from row r of `A` and row r of `X` alone, which is what one row band of a blocked
  evaluation has at hand; `layerAt` is `rowLayer` at the two rows (`layerAt_eq_rowLayer`).

  `matmul_rows_cols`: a matrix unit's product of an [A, K] by a [K, B] matrix into a zero accumulator, read at (p, q),
  is ∑ k, L(p,k) · R(k,q) — stated for any dimension record whose four index facts (the left index takes the output
  row and the contraction position, the right index the contraction position and the output column) are supplied.
-/
import Idealize.ShloMosaic.Lib.ValueIdx
import Idealize.ShloMosaic.Lib.Pipeline.Value
import Idealize.ShloMosaic.PureOps.Ideal.Laws

noncomputable section

namespace Cert.DenseLayer

open Idealize.ShloMosaic Idealize.ShloMosaic.ValueIdx

/-- Entry `c` of one output row of the layer, from that row `a` of the adjacency matrix and that row `xr` of the
    features: `(∑ j, ((∑ k, a k · X(k,j)) + s · xr j) · W(j,c)) + b c`. -/
def rowLayer {N K M : ℕ} (a : Fin N → EReal) (X : (⟨2, ![N, K]⟩ : Shape).Idx → EReal)
    (W : (⟨2, ![K, M]⟩ : Shape).Idx → EReal) (b : Fin M → EReal) (s : EReal) (xr : Fin K → EReal) (c : Fin M) : EReal :=
  (∑ j : Fin K, ((∑ k : Fin N, a k * X (ix2 k j)) + s * xr j) * W (ix2 j c)) + b c

/-- Entry (r, c) of the layer's output. -/
def layerAt {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) : EReal :=
  (∑ j : Fin K, ((∑ k : Fin N, A (ix2 r k) * X (ix2 k j)) + s * X (ix2 r j)) * W (ix2 j c)) + b c

/-- The entry from the two rows it depends on. -/
theorem layerAt_eq_rowLayer {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    layerAt A X W b s r c = rowLayer (fun k => A (ix2 r k)) X W b s (fun j => X (ix2 r j)) c := rfl

/-- The same entry with the own-features term written first (`s · X(r,j) + ∑ k, A(r,k) · X(k,j)`): addition of
    extended reals is commutative. -/
theorem layerAt_comm {N K M : ℕ} (A : (⟨2, ![N, N]⟩ : Shape).Idx → EReal) (X : (⟨2, ![N, K]⟩ : Shape).Idx → EReal)
    (W : (⟨2, ![K, M]⟩ : Shape).Idx → EReal) (b : Fin M → EReal) (s : EReal) (r : Fin N) (c : Fin M) :
    (∑ j : Fin K, (s * X (ix2 r j) + ∑ k : Fin N, A (ix2 r k) * X (ix2 k j)) * W (ix2 j c)) + b c = layerAt A X W b s r c := by
  unfold layerAt
  refine congrArg (· + b c) (Finset.sum_congr rfl fun j _ => ?_)
  rw [add_comm]

/-- A matrix product into a zero accumulator, read at (p, q): the sum over the contracted axis of the left operand's
    row p times the right operand's column q. -/
theorem matmul_rows_cols {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) (p : Fin A) (q : Fin B) :
    FloatOps.matmul d prec L R (constant ⟨2, ![A, B]⟩ .f32 0x00000000#32) (ix2 p q)
      = ∑ k : Fin K, L (ix2 p k) * R (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.DenseLayer

end
-- ==== Proof.Body.lean ====
/-
  What each kernel body stores, entry by entry on the extended reals.

  Every body multiplies a block of rows by a whole weight matrix into a zero accumulator, so entry (p, q) of the
  product is ∑ k, L(p,k) · R(k,q); the changes of float format around it are the identity on extended reals, a
  cast to the same shape is the identity, and the activation is `max · 0`.
    * bond initialisation: the product of the bond-feature rows with `W_i`, and its activation;
    * message update: the activation of the carried pre-activation row plus the product of the combined-message
      rows with `W_h`;
    * atom readout: the activation of the product of the atom-feature rows with the upper weights, plus the product of
      the aggregated-message rows with the lower weights, plus the bias row.
-/
import proofs.«167756_j15530601742850_2_alg».proof.Proof.Gen.KernelIdeal.Skeleton
import proofs.«167756_j15530601742850_2_alg».proof.Proof.LibDenseLayer
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx Cert.DenseLayer

/-! The four coordinate facts of `dot_S4000x147_S147x300_S4000x300_1_0_0_1_n_n`: the left index takes the output row and the contraction position, the
    right index the contraction position and the output column. -/
theorem dotInit_l0 (i : S4000x300.Idx) (q : dot_S4000x147_S147x300_S4000x300_1_0_0_1_n_n.contr.Idx) : (dot_S4000x147_S147x300_S4000x300_1_0_0_1_n_n.lhsIdx i q 0).val = (i 0).val := by
  unfold DotDims.lhsIdx
  rw [dif_neg (show ¬(0 : Fin S4000x147.rank) ∈ dot_S4000x147_S147x300_S4000x300_1_0_0_1_n_n.lhsBatch by decide), dif_pos (show (0 : Fin S4000x147.rank) ∈ dot_S4000x147_S147x300_S4000x300_1_0_0_1_n_n.lhsNonContracting by decide)]
  rfl
theorem dotInit_l1 (i : S4000x300.Idx) (q : dot_S4000x147_S147x300_S4000x300_1_0_0_1_n_n.contr.Idx) : (dot_S4000x147_S147x300_S4000x300_1_0_0_1_n_n.lhsIdx i q 1).val = (q ⟨0, by decide⟩).val :=
  dot_S4000x147_S147x300_S4000x300_1_0_0_1_n_n.lhsIdx_val_of_single rfl i q
theorem dotInit_r0 (i : S4000x300.Idx) (q : dot_S4000x147_S147x300_S4000x300_1_0_0_1_n_n.contr.Idx) : (dot_S4000x147_S147x300_S4000x300_1_0_0_1_n_n.rhsIdx i q 0).val = (q ⟨0, by decide⟩).val :=
  dot_S4000x147_S147x300_S4000x300_1_0_0_1_n_n.rhsIdx_val_of_single rfl i q
theorem dotInit_r1 (i : S4000x300.Idx) (q : dot_S4000x147_S147x300_S4000x300_1_0_0_1_n_n.contr.Idx) : (dot_S4000x147_S147x300_S4000x300_1_0_0_1_n_n.rhsIdx i q 1).val = (i 1).val := by
  unfold DotDims.rhsIdx
  rw [dif_neg (show ¬(1 : Fin S147x300.rank) ∈ dot_S4000x147_S147x300_S4000x300_1_0_0_1_n_n.rhsBatch by decide), dif_pos (show (1 : Fin S147x300.rank) ∈ dot_S4000x147_S147x300_S4000x300_1_0_0_1_n_n.rhsNonContracting by decide)]
  rfl

/-! The four coordinate facts of `dot_S4000x300_S300x300_S4000x300_1_0_0_1_n_n`: the left index takes the output row and the contraction position, the
    right index the contraction position and the output column. -/
theorem dotStep_l0 (i : S4000x300.Idx) (q : dot_S4000x300_S300x300_S4000x300_1_0_0_1_n_n.contr.Idx) : (dot_S4000x300_S300x300_S4000x300_1_0_0_1_n_n.lhsIdx i q 0).val = (i 0).val := by
  unfold DotDims.lhsIdx
  rw [dif_neg (show ¬(0 : Fin S4000x300.rank) ∈ dot_S4000x300_S300x300_S4000x300_1_0_0_1_n_n.lhsBatch by decide), dif_pos (show (0 : Fin S4000x300.rank) ∈ dot_S4000x300_S300x300_S4000x300_1_0_0_1_n_n.lhsNonContracting by decide)]
  rfl
theorem dotStep_l1 (i : S4000x300.Idx) (q : dot_S4000x300_S300x300_S4000x300_1_0_0_1_n_n.contr.Idx) : (dot_S4000x300_S300x300_S4000x300_1_0_0_1_n_n.lhsIdx i q 1).val = (q ⟨0, by decide⟩).val :=
  dot_S4000x300_S300x300_S4000x300_1_0_0_1_n_n.lhsIdx_val_of_single rfl i q
theorem dotStep_r0 (i : S4000x300.Idx) (q : dot_S4000x300_S300x300_S4000x300_1_0_0_1_n_n.contr.Idx) : (dot_S4000x300_S300x300_S4000x300_1_0_0_1_n_n.rhsIdx i q 0).val = (q ⟨0, by decide⟩).val :=
  dot_S4000x300_S300x300_S4000x300_1_0_0_1_n_n.rhsIdx_val_of_single rfl i q
theorem dotStep_r1 (i : S4000x300.Idx) (q : dot_S4000x300_S300x300_S4000x300_1_0_0_1_n_n.contr.Idx) : (dot_S4000x300_S300x300_S4000x300_1_0_0_1_n_n.rhsIdx i q 1).val = (i 1).val := by
  unfold DotDims.rhsIdx
  rw [dif_neg (show ¬(1 : Fin S300x300.rank) ∈ dot_S4000x300_S300x300_S4000x300_1_0_0_1_n_n.rhsBatch by decide), dif_pos (show (1 : Fin S300x300.rank) ∈ dot_S4000x300_S300x300_S4000x300_1_0_0_1_n_n.rhsNonContracting by decide)]
  rfl

/-! The four coordinate facts of `dot_S2000x133_S133x300_S2000x300_1_0_0_1_n_n`: the left index takes the output row and the contraction position, the
    right index the contraction position and the output column. -/
theorem dotAtom_l0 (i : S2000x300.Idx) (q : dot_S2000x133_S133x300_S2000x300_1_0_0_1_n_n.contr.Idx) : (dot_S2000x133_S133x300_S2000x300_1_0_0_1_n_n.lhsIdx i q 0).val = (i 0).val := by
  unfold DotDims.lhsIdx
  rw [dif_neg (show ¬(0 : Fin S2000x133.rank) ∈ dot_S2000x133_S133x300_S2000x300_1_0_0_1_n_n.lhsBatch by decide), dif_pos (show (0 : Fin S2000x133.rank) ∈ dot_S2000x133_S133x300_S2000x300_1_0_0_1_n_n.lhsNonContracting by decide)]
  rfl
theorem dotAtom_l1 (i : S2000x300.Idx) (q : dot_S2000x133_S133x300_S2000x300_1_0_0_1_n_n.contr.Idx) : (dot_S2000x133_S133x300_S2000x300_1_0_0_1_n_n.lhsIdx i q 1).val = (q ⟨0, by decide⟩).val :=
  dot_S2000x133_S133x300_S2000x300_1_0_0_1_n_n.lhsIdx_val_of_single rfl i q
theorem dotAtom_r0 (i : S2000x300.Idx) (q : dot_S2000x133_S133x300_S2000x300_1_0_0_1_n_n.contr.Idx) : (dot_S2000x133_S133x300_S2000x300_1_0_0_1_n_n.rhsIdx i q 0).val = (q ⟨0, by decide⟩).val :=
  dot_S2000x133_S133x300_S2000x300_1_0_0_1_n_n.rhsIdx_val_of_single rfl i q
theorem dotAtom_r1 (i : S2000x300.Idx) (q : dot_S2000x133_S133x300_S2000x300_1_0_0_1_n_n.contr.Idx) : (dot_S2000x133_S133x300_S2000x300_1_0_0_1_n_n.rhsIdx i q 1).val = (i 1).val := by
  unfold DotDims.rhsIdx
  rw [dif_neg (show ¬(1 : Fin S133x300.rank) ∈ dot_S2000x133_S133x300_S2000x300_1_0_0_1_n_n.rhsBatch by decide), dif_pos (show (1 : Fin S133x300.rank) ∈ dot_S2000x133_S133x300_S2000x300_1_0_0_1_n_n.rhsNonContracting by decide)]
  rfl

/-! The four coordinate facts of `dot_S2000x300_S300x300_S2000x300_1_0_0_1_n_n`: the left index takes the output row and the contraction position, the
    right index the contraction position and the output column. -/
theorem dotMsg_l0 (i : S2000x300.Idx) (q : dot_S2000x300_S300x300_S2000x300_1_0_0_1_n_n.contr.Idx) : (dot_S2000x300_S300x300_S2000x300_1_0_0_1_n_n.lhsIdx i q 0).val = (i 0).val := by
  unfold DotDims.lhsIdx
  rw [dif_neg (show ¬(0 : Fin S2000x300.rank) ∈ dot_S2000x300_S300x300_S2000x300_1_0_0_1_n_n.lhsBatch by decide), dif_pos (show (0 : Fin S2000x300.rank) ∈ dot_S2000x300_S300x300_S2000x300_1_0_0_1_n_n.lhsNonContracting by decide)]
  rfl
theorem dotMsg_l1 (i : S2000x300.Idx) (q : dot_S2000x300_S300x300_S2000x300_1_0_0_1_n_n.contr.Idx) : (dot_S2000x300_S300x300_S2000x300_1_0_0_1_n_n.lhsIdx i q 1).val = (q ⟨0, by decide⟩).val :=
  dot_S2000x300_S300x300_S2000x300_1_0_0_1_n_n.lhsIdx_val_of_single rfl i q
theorem dotMsg_r0 (i : S2000x300.Idx) (q : dot_S2000x300_S300x300_S2000x300_1_0_0_1_n_n.contr.Idx) : (dot_S2000x300_S300x300_S2000x300_1_0_0_1_n_n.rhsIdx i q 0).val = (q ⟨0, by decide⟩).val :=
  dot_S2000x300_S300x300_S2000x300_1_0_0_1_n_n.rhsIdx_val_of_single rfl i q
theorem dotMsg_r1 (i : S2000x300.Idx) (q : dot_S2000x300_S300x300_S2000x300_1_0_0_1_n_n.contr.Idx) : (dot_S2000x300_S300x300_S2000x300_1_0_0_1_n_n.rhsIdx i q 1).val = (i 1).val := by
  unfold DotDims.rhsIdx
  rw [dif_neg (show ¬(1 : Fin S300x300.rank) ∈ dot_S2000x300_S300x300_S2000x300_1_0_0_1_n_n.rhsBatch by decide), dif_pos (show (1 : Fin S300x300.rank) ∈ dot_S2000x300_S300x300_S2000x300_1_0_0_1_n_n.rhsNonContracting by decide)]
  rfl

/-- The bond-initialisation product at (p, q). -/
theorem init_pre (x0 : Vec Ideal S4000x147 .f32) (x1 : Vec Ideal S147x300 .f32) (p : Fin 4000) (q : Fin 300) :
    k0_pay1 (F := Ideal) x0 x1 (ix2 p q) = ∑ k : Fin 147, x0 (ix2 p k) * x1 (ix2 k q) := by
  unfold k0_pay1
  exact matmul_rows_cols dot_S4000x147_S147x300_S4000x300_1_0_0_1_n_n rfl rfl dotInit_l0 dotInit_l1 dotInit_r0 dotInit_r1 none _ _ p q

/-- The first messages at (p, q): the activation of the product. -/
theorem init_msg (x0 : Vec Ideal S4000x147 .f32) (x1 : Vec Ideal S147x300 .f32) (p : Fin 4000) (q : Fin 300) :
    k0_pay2 (F := Ideal) x0 x1 (ix2 p q) = max (∑ k : Fin 147, x0 (ix2 p k) * x1 (ix2 k q)) 0 := by
  unfold k0_pay2
  show max (k0_pay1 (F := Ideal) x0 x1 (ix2 p q)) (Ideal.ofBits .f32 0x00000000#32) = _
  rw [init_pre, Ideal.ofBits_zero_f32]

/-- A message update at (p, q): the activation of the carried pre-activation plus the product with `W_h`. -/
theorem step1_msg (v0 : Vec Ideal S4000x300 .bf16) (v2 : Vec Ideal S300x300 .f32) (v5 : Vec Ideal S4000x300 .f32) (p : Fin 4000) (q : Fin 300) :
    k1_pay1 (F := Ideal) v0 v2 v5 (ix2 p q) = max (v5 (ix2 p q) + ∑ k : Fin 300, v0 (ix2 p k) * v2 (ix2 k q)) 0 := by
  unfold k1_pay1
  simp only [shapeCast_self]
  refine (congrArg (fun z : EReal => max ((v5 (ix2 p q) : EReal) + z) (Ideal.ofBits .f32 0x00000000#32))
    (matmul_rows_cols dot_S4000x300_S300x300_S4000x300_1_0_0_1_n_n rfl rfl dotStep_l0 dotStep_l1 dotStep_r0 dotStep_r1 none v0 (truncf .bf16 v2 bitsLt_bf16_f32) p q)).trans ?_
  rw [Ideal.ofBits_zero_f32]
  rfl

/-- A message update at (p, q): the activation of the carried pre-activation plus the product with `W_h`. -/
theorem step2_msg (v0 : Vec Ideal S4000x300 .bf16) (v2 : Vec Ideal S300x300 .f32) (v5 : Vec Ideal S4000x300 .f32) (p : Fin 4000) (q : Fin 300) :
    k2_pay1 (F := Ideal) v0 v2 v5 (ix2 p q) = max (v5 (ix2 p q) + ∑ k : Fin 300, v0 (ix2 p k) * v2 (ix2 k q)) 0 := by
  unfold k2_pay1
  simp only [shapeCast_self]
  refine (congrArg (fun z : EReal => max ((v5 (ix2 p q) : EReal) + z) (Ideal.ofBits .f32 0x00000000#32))
    (matmul_rows_cols dot_S4000x300_S300x300_S4000x300_1_0_0_1_n_n rfl rfl dotStep_l0 dotStep_l1 dotStep_r0 dotStep_r1 none v0 (truncf .bf16 v2 bitsLt_bf16_f32) p q)).trans ?_
  rw [Ideal.ofBits_zero_f32]
  rfl

/-- The atom readout at (p, q): the activation of the two products plus the bias row's entry. -/
theorem readout_at (v0 : Vec Ideal S2000x133 .f32) (v2 : Vec Ideal S2000x300 .bf16) (v4 : Vec Ideal S133x300 .f32) (v7 : Vec Ideal S300x300 .f32) (v13 : Vec Ideal S1x300 .f32) (p : Fin 2000) (q : Fin 300) :
    k3_pay1 (F := Ideal) v0 v2 v4 v7 v13 (ix2 p q)
      = max ((∑ k : Fin 133, v0 (ix2 p k) * v4 (ix2 k q)) + (∑ k : Fin 300, v2 (ix2 p k) * v7 (ix2 k q)) + v13 (ix2 (0 : Fin 1) q)) 0 := by
  unfold k3_pay1
  simp only [shapeCast_self]
  have e1 := matmul_rows_cols (φ₁ := .bf16) (φ₂ := .bf16) dot_S2000x133_S133x300_S2000x300_1_0_0_1_n_n rfl rfl dotAtom_l0 dotAtom_l1 dotAtom_r0 dotAtom_r1 none (truncf .bf16 v0 bitsLt_bf16_f32) (truncf .bf16 v4 bitsLt_bf16_f32) p q
  have e2 := matmul_rows_cols (φ₁ := .bf16) (φ₂ := .bf16) dot_S2000x300_S300x300_S2000x300_1_0_0_1_n_n rfl rfl dotMsg_l0 dotMsg_l1 dotMsg_r0 dotMsg_r1 none v2 (truncf .bf16 v7 bitsLt_bf16_f32) p q
  have e3 := broadcastTo_1b_ab_apply v13 broadcasts_S1x300_S2000x300 p q
  refine (congrArg₂ (fun a z : EReal => max (a + z) (Ideal.ofBits .f32 0x00000000#32)) (congrArg₂ (fun a b : EReal => a + b) e1 e2) e3).trans ?_
  rw [Ideal.ofBits_zero_f32]
  rfl

end Cert.KernelIdeal.Body

end
-- ==== Proof.Spec.lean ====
/-
  The arithmetic of a directed message-passing network over bonds, entry by entry on the extended reals.

  A dense layer is the matrix product `dense L R (r, c) = ∑ k, L(r,k) · R(k,c)`; the activation is `max x 0`.
  The bond messages start at `act (dense X W_i)`; one round replaces the messages by
  `act (inp + dense mc W_h)` where `inp = dense X W_i` and `mc` is the neighbourhood combination of the previous
  messages; the atom readout is `act (dense F W_a + dense A W_m + b)`, where `W_a` are the first rows of the output
  weights and `W_m` the remaining ones.

  The one law proved here joins a product with a matrix whose columns are two matrices side by side to the sum of
  the two products with the upper and the lower rows of the right factor: the sum over the joined axis splits at
  the seam. Only commutativity and associativity of addition are used, so it holds at the infinities too.
-/
import Idealize.ShloMosaic.Lib.ValueIdx
import Idealize.ShloMosaic.PureOps.Ideal.Laws

noncomputable section

namespace Cert.Mpnn

open Idealize.ShloMosaic Idealize.ShloMosaic.ValueIdx

/-- An `a × b` matrix of extended reals, indexed as the rank-2 arrays of the programs are. -/
abbrev Mat (a b : ℕ) : Type := (⟨2, ![a, b]⟩ : Shape).Idx → EReal

/-- The matrix product, entry by entry. -/
def dense {a k b : ℕ} (L : Mat a k) (R : Mat k b) : Mat a b :=
  fun i => ∑ j : Fin k, L (ix2 (n0 := a) (n1 := k) (i 0) j) * R (ix2 (n0 := k) (n1 := b) j (i 1))

theorem dense_apply {a k b : ℕ} (L : Mat a k) (R : Mat k b) (p : Fin a) (q : Fin b) :
    dense L R (ix2 p q) = ∑ j : Fin k, L (ix2 p j) * R (ix2 j q) := rfl

/-- The activation `max x 0`, entry by entry. -/
def act {a b : ℕ} (x : Mat a b) : Mat a b := fun i => max (x i) 0

/-- The first messages' pre-activation and one round's update. -/
def update {n h : ℕ} (inp mc : Mat n h) (Wh : Mat h h) : Mat n h := act fun i => inp i + dense mc Wh i

/-- The atom readout: two products, the bias row added to every row, the activation. -/
def readout {n f h : ℕ} (F : Mat n f) (A : Mat n h) (Wa : Mat f h) (Wm : Mat h h) (b : Mat 1 h) : Mat n h :=
  act fun i => dense F Wa i + dense A Wm i + b (ix2 (n0 := 1) (n1 := h) 0 (i 1))

/-- A sum over `f + h` positions is the sum over the first `f` plus the sum over the last `h`, and so a product whose
    left factor's row is two rows side by side and whose right factor is two blocks of rows one above the other is
    the sum of the two products. Stated with the joined row and the stacked column given by their two halves. -/
theorem sum_split {f h : ℕ} (u : Fin (f + h) → EReal) :
    ∑ k : Fin (f + h), u k = (∑ k : Fin f, u (Fin.castAdd h k)) + ∑ k : Fin h, u (Fin.natAdd f k) :=
  Fin.sum_univ_add u

end Cert.Mpnn

end
-- ==== Proof.Region3.lean ====
/-
  The atom-readout launch as a whole array.

  The grid has 50 points; point `t` reads rows `2000·t … 2000·t + 1999` of the atom features and of the aggregated
  messages, the whole of the two weight matrices and the bias row, and writes the same rows of the atom hidden states:
  the activation of the two products plus the bias. The row blocks tile the 100000 rows, so after the launch the
  output is `readout F A W_a W_m b`.
-/
import proofs.«167756_j15530601742850_2_alg».proof.Proof.Gen.KernelIdeal.Frame
import proofs.«167756_j15530601742850_2_alg».proof.Proof.Body
import proofs.«167756_j15530601742850_2_alg».proof.Proof.Spec

set_option maxRecDepth 16384

noncomputable section

namespace Cert.KernelIdeal.Readout

open Cert.KernelIdeal Cert.KernelIdeal.Gen Cert.Mpnn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows are at block row `t`, the weights and the bias at block (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem lt_N (t : Fin cfg3.N) : t.val < 50 := lt_of_lt_of_eq t.isLt N_3

/-- Window 0's block at point `t` read at an entry: rows `2000·t … 2000·t + 1999` of its array. -/
theorem blk0_apply (c : Dev nD) (t : Fin cfg3.N) (x : S2000x133.Idx) (k : S100000x133.Idx)
    (hk0 : (k 0).val = 2000 * t.val + (x 0).val) (hk1 : (k 1).val = (x 1).val) :
    (iblk3 V c 0 t : Vec Ideal S2000x133 .f32) x = (V c main_arg0 : S100000x133.Idx → Elt Ideal .f32) k := by
  have hi := idx_facts t
  unfold iblk3
  rw [View.read_apply]
  show V c main_arg0 _ = V c main_arg0 _
  congr 1
  funext a
  apply Fin.ext
  match a with
  | ⟨0, _⟩ => show win3_0.index t 0 * 2000 + 1 * (x 0).val = (k 0).val; rw [hi.1, hk0]; omega
  | ⟨1, _⟩ => show win3_0.index t 1 * 133 + 1 * (x 1).val = (k 1).val; rw [hi.2.1, hk1]; omega

/-- Window 1's block at point `t` read at an entry: rows `2000·t … 2000·t + 1999` of its array. -/
theorem blk1_apply (c : Dev nD) (t : Fin cfg3.N) (x : S2000x300.Idx) (k : S100000x300.Idx)
    (hk0 : (k 0).val = 2000 * t.val + (x 0).val) (hk1 : (k 1).val = (x 1).val) :
    (iblk3 V c 1 t : Vec Ideal S2000x300 .bf16) x = (V c main_v64 : S100000x300.Idx → Elt Ideal .bf16) k := by
  have hi := idx_facts t
  unfold iblk3
  rw [View.read_apply]
  show V c main_v64 _ = V c main_v64 _
  congr 1
  funext a
  apply Fin.ext
  match a with
  | ⟨0, _⟩ => show win3_1.index t 0 * 2000 + 1 * (x 0).val = (k 0).val; rw [hi.2.2.1, hk0]; omega
  | ⟨1, _⟩ => show win3_1.index t 1 * 300 + 1 * (x 1).val = (k 1).val; rw [hi.2.2.2.1, hk1]; omega

/-- Window 2's block at point `t` read at an entry: the whole array. -/
theorem blk2_apply (c : Dev nD) (t : Fin cfg3.N) (x : S133x300.Idx) (k : S133x300.Idx)
    (hk0 : (k 0).val = (x 0).val) (hk1 : (k 1).val = (x 1).val) :
    (iblk3 V c 2 t : Vec Ideal S133x300 .f32) x = (V c main_v65 : S133x300.Idx → Elt Ideal .f32) k := by
  have hi := idx_facts t
  unfold iblk3
  rw [View.read_apply]
  show V c main_v65 _ = V c main_v65 _
  congr 1
  funext a
  apply Fin.ext
  match a with
  | ⟨0, _⟩ => show win3_2.index t 0 * 133 + 1 * (x 0).val = (k 0).val; rw [hi.2.2.2.2.1, hk0]; omega
  | ⟨1, _⟩ => show win3_2.index t 1 * 300 + 1 * (x 1).val = (k 1).val; rw [hi.2.2.2.2.2.1, hk1]; omega

/-- Window 3's block at point `t` read at an entry: the whole array. -/
theorem blk3_apply (c : Dev nD) (t : Fin cfg3.N) (x : S300x300.Idx) (k : S300x300.Idx)
    (hk0 : (k 0).val = (x 0).val) (hk1 : (k 1).val = (x 1).val) :
    (iblk3 V c 3 t : Vec Ideal S300x300 .f32) x = (V c main_v66 : S300x300.Idx → Elt Ideal .f32) k := by
  have hi := idx_facts t
  unfold iblk3
  rw [View.read_apply]
  show V c main_v66 _ = V c main_v66 _
  congr 1
  funext a
  apply Fin.ext
  match a with
  | ⟨0, _⟩ => show win3_3.index t 0 * 300 + 1 * (x 0).val = (k 0).val; rw [hi.2.2.2.2.2.2.1, hk0]; omega
  | ⟨1, _⟩ => show win3_3.index t 1 * 300 + 1 * (x 1).val = (k 1).val; rw [hi.2.2.2.2.2.2.2.1, hk1]; omega

/-- Window 4's block at point `t` read at an entry: the whole array. -/
theorem blk4_apply (c : Dev nD) (t : Fin cfg3.N) (x : S1x300.Idx) (k : S1x300.Idx)
    (hk0 : (k 0).val = (x 0).val) (hk1 : (k 1).val = (x 1).val) :
    (iblk3 V c 4 t : Vec Ideal S1x300 .f32) x = (V c main_v67 : S1x300.Idx → Elt Ideal .f32) k := by
  have hi := idx_facts t
  unfold iblk3
  rw [View.read_apply]
  show V c main_v67 _ = V c main_v67 _
  congr 1
  funext a
  apply Fin.ext
  match a with
  | ⟨0, _⟩ => show win3_4.index t 0 * 1 + 1 * (x 0).val = (k 0).val; rw [hi.2.2.2.2.2.2.2.2.1, hk0]; omega
  | ⟨1, _⟩ => show win3_4.index t 1 * 300 + 1 * (x 1).val = (k 1).val; rw [hi.2.2.2.2.2.2.2.2.2.1, hk1]; omega

/-- The atom features, the aggregated messages, the two weight blocks and the bias row as the launch finds them. -/
abbrev feats (c : Dev nD) : Mat 100000 133 := V c main_arg0
abbrev agg (c : Dev nD) : Mat 100000 300 := V c main_v64
abbrev upper (c : Dev nD) : Mat 133 300 := V c main_v65
abbrev lower (c : Dev nD) : Mat 300 300 := V c main_v66
abbrev bias (c : Dev nD) : Mat 1 300 := V c main_v67

/-- Entry (p, q) of the output block at point `t` is entry (2000·t + p, q) of the array. -/
theorem emb5 (t : Fin cfg3.N) (p : Fin 2000) (q : Fin 300) :
    ((cfg3.win 5).blk t).view.emb (ix2 p q) = (ix2 (n0 := 100000) (n1 := 300) ⟨2000 * t.val + p.val, by have := lt_N t; omega⟩ q : S100000x300.Idx) := by
  have hi := idx_facts t
  funext a
  apply Fin.ext
  match a with
  | ⟨0, _⟩ => show win3_5.index t 0 * 2000 + 1 * p.val = 2000 * t.val + p.val; rw [hi.2.2.2.2.2.2.2.2.2.2.1]; omega
  | ⟨1, _⟩ => show win3_5.index t 1 * 300 + 1 * q.val = q.val; rw [hi.2.2.2.2.2.2.2.2.2.2.2]; omega

/-- The two input blocks of the feature product at point `t`, at their literal types. -/
abbrev rows_dense_feats_L (c : Dev nD) (t : Fin cfg3.N) : Vec Ideal S2000x133 .f32 := iblk3 V c 0 t
abbrev rows_dense_feats_R (c : Dev nD) (t : Fin cfg3.N) : Vec Ideal S133x300 .f32 := iblk3 V c 2 t

/-- The product of the block's rows with the weights is the block of the whole product. -/
theorem rows_dense_feats (c : Dev nD) (t : Fin cfg3.N) (p : Fin 2000) (q : Fin 300) :
    ∑ k : Fin 133, rows_dense_feats_L V c t (ix2 p k) * rows_dense_feats_R V c t (ix2 k q)
      = dense (feats V c) (upper V c) (ix2 (n0 := 100000) (n1 := 300) ⟨2000 * t.val + p.val, by have := lt_N t; omega⟩ q) := by
  rw [dense_apply]
  exact Finset.sum_congr rfl fun k _ => congrArg₂ (fun a b : EReal => a * b)
    (blk0_apply V c t (ix2 p k) (ix2 (n0 := 100000) (n1 := 133) ⟨2000 * t.val + p.val, by have := lt_N t; omega⟩ k) rfl rfl)
    (blk2_apply V c t (ix2 k q) (ix2 (n0 := 133) (n1 := 300) k q) rfl rfl)

/-- The two input blocks of the message product at point `t`, at their literal types. -/
abbrev rows_dense_agg_L (c : Dev nD) (t : Fin cfg3.N) : Vec Ideal S2000x300 .bf16 := iblk3 V c 1 t
abbrev rows_dense_agg_R (c : Dev nD) (t : Fin cfg3.N) : Vec Ideal S300x300 .f32 := iblk3 V c 3 t

/-- The product of the block's rows with the weights is the block of the whole product. -/
theorem rows_dense_agg (c : Dev nD) (t : Fin cfg3.N) (p : Fin 2000) (q : Fin 300) :
    ∑ k : Fin 300, rows_dense_agg_L V c t (ix2 p k) * rows_dense_agg_R V c t (ix2 k q)
      = dense (agg V c) (lower V c) (ix2 (n0 := 100000) (n1 := 300) ⟨2000 * t.val + p.val, by have := lt_N t; omega⟩ q) := by
  rw [dense_apply]
  exact Finset.sum_congr rfl fun k _ => congrArg₂ (fun a b : EReal => a * b)
    (blk1_apply V c t (ix2 p k) (ix2 (n0 := 100000) (n1 := 300) ⟨2000 * t.val + p.val, by have := lt_N t; omega⟩ k) rfl rfl)
    (blk3_apply V c t (ix2 k q) (ix2 (n0 := 300) (n1 := 300) k q) rfl rfl)

/-- What point `t` writes back is block `t` of the atom hidden states. -/
theorem flushed_out (c : Dev nD) (t : Fin cfg3.N) :
    (dat3 V c).flushed 5 t = ((cfg3.win 5).blk t).view.read (Elt Ideal) (readout (feats V c) (agg V c) (upper V c) (lower V c) (bias V c)) := by
  show (cfg3.win 5).cut (grid3.coords t) ((dat3 V c).after 5 t) = _
  rw [after3_5]
  unfold out3_5
  rw [View.canon_unit_zero hz]
  simp only [View.ld_unit_zero (S := S2000x133) hz, View.ld_unit_zero (S := S2000x300) hz, View.ld_unit_zero (S := S133x300) hz,
    View.ld_unit_zero (S := S300x300) hz, View.ld_unit_zero (S := S1x300) hz]
  funext y
  obtain ⟨p, q, rfl⟩ : ∃ (p : Fin 2000) (q : Fin 300), y = ix2 p q := ⟨y 0, y 1, eq_ix2 y⟩
  rw [View.read_apply, emb5]
  refine (Body.readout_at (iblk3 V c 0 t) (iblk3 V c 1 t) (iblk3 V c 2 t) (iblk3 V c 3 t) (iblk3 V c 4 t) p q).trans ?_
  rw [rows_dense_feats V c t p q, rows_dense_agg V c t p q,
    blk4_apply V c t (ix2 (0 : Fin 1) q) (ix2 (n0 := 1) (n1 := 300) 0 q) rfl rfl]
  rfl

/-- An index of the output array is in point `t`'s block iff each coordinate is in the block's range on its axis. -/
theorem mem_blk5 (t : Fin cfg3.N) (i : S100000x300.Idx) :
    i ∈ ((cfg3.win 5).blk t).view.set ↔ ∀ a : Fin 2, win3_5.index t a * S2000x300.size a ≤ (i a).val ∧ (i a).val < win3_5.index t a * S2000x300.size a + S2000x300.size a := by
  show i ∈ ((View.whole main_v68).slice (win3_5.rect t)).set ↔ _
  rw [View.set_slice_whole, Rect.mem_set_unit]
  exact Iff.rfl

/-- Row `r` lies in the block of point `r / 2000`. -/
theorem cover5 (i : S100000x300.Idx) : ∃ t : Fin cfg3.N, (cfg3.win 5).flush t = true ∧ i ∈ ((cfg3.win 5).blk t).view.set := by
  have hi0 : (i 0).val < 100000 := (i 0).isLt
  have hi1 : (i 1).val < 300 := (i 1).isLt
  have hN : cfg3.N = 50 := N_3
  refine ⟨⟨(i 0).val / 2000, by rw [hN]; omega⟩, flush3_5 _, ?_⟩
  have hi := idx_facts ⟨(i 0).val / 2000, by rw [hN]; omega⟩
  rw [mem_blk5]
  intro a
  match a with
  | ⟨0, _⟩ => show win3_5.index _ 0 * 2000 ≤ (i 0).val ∧ (i 0).val < win3_5.index _ 0 * 2000 + 2000; rw [hi.2.2.2.2.2.2.2.2.2.2.1]; show (i 0).val / 2000 * 2000 ≤ (i 0).val ∧ (i 0).val < (i 0).val / 2000 * 2000 + 2000; omega
  | ⟨1, _⟩ => show win3_5.index _ 1 * 300 ≤ (i 1).val ∧ (i 1).val < win3_5.index _ 1 * 300 + 300; rw [hi.2.2.2.2.2.2.2.2.2.2.2]; omega

/-- After the launch the output holds the atom hidden states. -/
theorem out_array (c : Dev nD) : (dat3 V c).arrAt 5 cfg3.N = readout (feats V c) (agg V c) (upper V c) (lower V c) (bias V c) :=
  (dat3 V c).arrAt_eq_of_cover 5 (readout (feats V c) (agg V c) (upper V c) (lower V c) (bias V c)) (fun t _ => flushed_out V c t) cover5

end Cert.KernelIdeal.Readout

end
-- ==== Proof.RefValue.lean ====
/-
  The reference's stages as the network's arithmetic.

  The reference computes the same layers with whole-array products: its first product is `dense X W_i`, its first
  messages their activation; each round's new messages are `update` of the first product, the round's combined
  messages and `W_h`; its atom hidden states are the activation of the product of the joined rows with the whole output
  weights plus the bias vector. The host's product read at an entry is the sum over the contracted axis, and the
  activation's zero is the extended real 0.
-/
import proofs.«167756_j15530601742850_2_alg».proof.Proof.Gen.ReferenceIdeal.Read
import proofs.«167756_j15530601742850_2_alg».proof.Proof.Spec

noncomputable section

namespace Cert.ReferenceIdeal.RefValue

open Cert.ReferenceIdeal Cert.ReferenceIdeal.Read Cert.Mpnn
open Idealize.ShloMosaic Idealize.ShloMosaic.ValueIdx

/-- A sum over the contracted axis whose two index families are (row of `i`, k) and (k, column of `i`) is the
    product's entry. -/
theorem sum_eq_dense {a k b : ℕ} (y : Mat a k) (x : Mat k b) (i : (⟨2, ![a, b]⟩ : Shape).Idx)
    (l : Fin k → (⟨2, ![a, k]⟩ : Shape).Idx) (r : Fin k → (⟨2, ![k, b]⟩ : Shape).Idx)
    (hl : ∀ j, l j = ix2 (i 0) j) (hr : ∀ j, r j = ix2 j (i 1)) :
    ∑ j : Fin k, y (l j) * x (r j) = dense y x i := by
  unfold dense
  exact Finset.sum_congr rfl fun j _ => by rw [hl j, hr j]; rfl

/-- The first product. -/
theorem pre_eq (x1 : Mat 200000 147) (x6 : Mat 147 300) : val_main_v0 (F := Ideal) x1 x6 = dense x1 x6 := by
  funext i
  rw [val_main_v0_apply]
  exact sum_eq_dense x1 x6 i _ _
    (fun j => funext fun a => by match a with | ⟨0, _⟩ => rfl | ⟨1, _⟩ => rfl)
    (fun j => funext fun a => by match a with | ⟨0, _⟩ => rfl | ⟨1, _⟩ => rfl)

/-- The first messages. -/
theorem msg0_eq (x1 : Mat 200000 147) (x6 : Mat 147 300) : val_main_v1 (F := Ideal) x1 x6 = act (dense x1 x6) := by
  funext i
  rw [val_main_v1_apply, val_main_call0_v0_apply, val_main_call0_cst_apply, pre_eq]
  show max (dense x1 x6 i) (Ideal.ofBits .f32 0x00000000#32) = max (dense x1 x6 i) 0
  rw [Ideal.ofBits_zero_f32]

/-- The first round's new messages. -/
theorem msg1_eq (x1 : Mat 200000 147) (x2 : S100000x6.Idx → Elt Ideal .i32) (x3 x4 : S200000.Idx → Elt Ideal .i32)
    (x6 : Mat 147 300) (x7 : Mat 300 300) :
    val_main_v27 (F := Ideal) x1 x2 x3 x4 x6 x7
      = update (val_main_v0 (F := Ideal) x1 x6) (val_main_v24 (F := Ideal) x1 x2 x3 x4 x6) x7 := by
  funext i
  rw [val_main_v27_apply, val_main_v26_apply, val_main_v25_apply, val_main_call1_v0_apply, val_main_call1_cst_apply,
    sum_eq_dense (val_main_v24 (F := Ideal) x1 x2 x3 x4 x6) x7 i _ _
      (fun j => funext fun a => by match a with | ⟨0, _⟩ => rfl | ⟨1, _⟩ => rfl)
      (fun j => funext fun a => by match a with | ⟨0, _⟩ => rfl | ⟨1, _⟩ => rfl)]
  show max (_ + _) (Ideal.ofBits .f32 0x00000000#32) = max (_ + _) 0
  rw [Ideal.ofBits_zero_f32]

/-- The second round's new messages. -/
theorem msg2_eq (x1 : Mat 200000 147) (x2 : S100000x6.Idx → Elt Ideal .i32) (x3 x4 : S200000.Idx → Elt Ideal .i32)
    (x6 : Mat 147 300) (x7 : Mat 300 300) :
    val_main_v53 (F := Ideal) x1 x2 x3 x4 x6 x7
      = update (val_main_v0 (F := Ideal) x1 x6) (val_main_v50 (F := Ideal) x1 x2 x3 x4 x6 x7) x7 := by
  funext i
  rw [val_main_v53_apply, val_main_v52_apply, val_main_v51_apply, val_main_call2_v0_apply, val_main_call2_cst_apply,
    sum_eq_dense (val_main_v50 (F := Ideal) x1 x2 x3 x4 x6 x7) x7 i _ _
      (fun j => funext fun a => by match a with | ⟨0, _⟩ => rfl | ⟨1, _⟩ => rfl)
      (fun j => funext fun a => by match a with | ⟨0, _⟩ => rfl | ⟨1, _⟩ => rfl)]
  show max (_ + _) (Ideal.ofBits .f32 0x00000000#32) = max (_ + _) 0
  rw [Ideal.ofBits_zero_f32]

/-- The atom hidden states: the joined rows times the whole weights, plus the bias vector, activated. -/
theorem hidden_eq (x0 : Mat 100000 133) (x1 : Mat 200000 147) (x2 : S100000x6.Idx → Elt Ideal .i32) (x3 x4 : S200000.Idx → Elt Ideal .i32)
    (x6 : Mat 147 300) (x7 : Mat 300 300) (x8 : Mat 433 300) (x9 : S300.Idx → EReal) :
    val_main_v67 (F := Ideal) x0 x1 x2 x3 x4 x6 x7 x8 x9
      = act fun i => dense (a := 100000) (k := 433) (b := 300) (val_main_v62 (F := Ideal) x0 x1 x2 x3 x4 x6 x7) x8 i + x9 (ix1 (i 1)) := by
  funext i
  rw [val_main_v67_apply, val_main_v66_apply, val_main_v63_apply, val_main_v65_apply, val_main_v64_apply,
    val_main_call3_v0_apply, val_main_call3_cst_apply,
    sum_eq_dense (a := 100000) (k := 433) (b := 300) (val_main_v62 (F := Ideal) x0 x1 x2 x3 x4 x6 x7) x8 i _ _
      (fun j => funext fun a => by match a with | ⟨0, _⟩ => rfl | ⟨1, _⟩ => rfl)
      (fun j => funext fun a => by match a with | ⟨0, _⟩ => rfl | ⟨1, _⟩ => rfl)]
  have eb : idx_main_v64 (idx_main_v65 i) = ix1 (i 1) := funext fun a => by match a with | ⟨0, _⟩ => rfl
  rw [eb]
  show max (_ + _) (Ideal.ofBits .f32 0x00000000#32) = max (_ + _) 0
  rw [Ideal.ofBits_zero_f32]
  rfl

end Cert.ReferenceIdeal.RefValue

end
-- ==== Proof.ReadoutLaw.lean ====
/-
  The readout's two spellings agree.

  One spelling joins the atom features and the aggregated messages side by side into rows of 133 + 300 entries,
  multiplies by the whole output weights, and adds the bias vector to every row; the other multiplies the features by
  the first 133 rows of the weights and the messages by the last 300 rows, adds the two products, and adds the bias
  kept as a one-row matrix. Entry by entry the joined sum over 433 positions is the sum over the first 133 plus the sum
  over the last 300: on the first the joined row reads the features and the weights their upper rows, on the last it
  reads the messages and the weights their lower rows. Only the splitting of a finite sum is used.
-/
import proofs.«167756_j15530601742850_2_alg».proof.Proof.Spec
import Idealize.ShloMosaic.Lib.Pipeline.Value
import Idealize.ShloMosaic.Lib.ValueLayout

noncomputable section

namespace Cert.Mpnn

open Idealize.ShloMosaic Idealize.ShloMosaic.ValueIdx

/-- A sum over 433 positions is the sum over the first 133 plus the sum over the last 300. -/
theorem sum_433 (u : Fin 433 → EReal) :
    ∑ j : Fin 433, u j = (∑ k : Fin 133, u ⟨k.val, by omega⟩) + ∑ k : Fin 300, u ⟨133 + k.val, by omega⟩ :=
  Fin.sum_univ_add (a := 133) (b := 300) u

/-- The joined row reads the features on its first 133 positions. -/
theorem joined_left {n : ℕ} (F : Mat n 133) (A : Mat n 300)
    (hc : Shape.Concatenates [(⟨2, ![n, 133]⟩ : Shape), ⟨2, ![n, 300]⟩] ⟨2, ![n, 433]⟩ (1 : Fin 2)) (r : Fin n) (k : Fin 133) (k' : Fin 433) (hk : k'.val = k.val) :
    concatenate ⟨2, ![n, 433]⟩ (1 : Fin 2) [⟨⟨2, ![n, 133]⟩, F⟩, ⟨⟨2, ![n, 300]⟩, A⟩] hc (ix2 r k') = F (ix2 r k) :=
  concatenate_pair_apply_left (1 : Fin 2) F A hc (ix2 r k') rfl (ix2 r k)
    (fun b => by match b with | ⟨0, _⟩ => rfl | ⟨1, _⟩ => exact hk.symm)

/-- The joined row reads the messages on its last 300 positions. -/
theorem joined_right {n : ℕ} (F : Mat n 133) (A : Mat n 300)
    (hc : Shape.Concatenates [(⟨2, ![n, 133]⟩ : Shape), ⟨2, ![n, 300]⟩] ⟨2, ![n, 433]⟩ (1 : Fin 2)) (r : Fin n) (k : Fin 300) (k' : Fin 433) (hk : k'.val = 133 + k.val) :
    concatenate ⟨2, ![n, 433]⟩ (1 : Fin 2) [⟨⟨2, ![n, 133]⟩, F⟩, ⟨⟨2, ![n, 300]⟩, A⟩] hc (ix2 r k') = A (ix2 r k) :=
  concatenate_pair_apply_right (1 : Fin 2) F A hc (ix2 r k') rfl rfl (ix2 r k)
    (fun b hb => by match b with | ⟨0, _⟩ => rfl | ⟨1, _⟩ => exact absurd rfl hb) (by show k.val + 133 = k'.val; omega)

/-- The product of the joined rows with the whole weights is the sum of the two products with the upper and the
    lower rows of the weights. -/
theorem dense_joined {n : ℕ} (F : Mat n 133) (A : Mat n 300) (W : Mat 433 300)
    (hc : Shape.Concatenates [(⟨2, ![n, 133]⟩ : Shape), ⟨2, ![n, 300]⟩] ⟨2, ![n, 433]⟩ (1 : Fin 2))
    (hs0 : (⟨2, ![433, 300]⟩ : Shape).Slices ![0, 0] ⟨2, ![133, 300]⟩)
    (hs1 : (⟨2, ![433, 300]⟩ : Shape).Slices ![133, 0] ⟨2, ![300, 300]⟩) (r : Fin n) (q : Fin 300) :
    dense (a := n) (k := 433) (b := 300) (concatenate ⟨2, ![n, 433]⟩ (1 : Fin 2) [⟨⟨2, ![n, 133]⟩, F⟩, ⟨⟨2, ![n, 300]⟩, A⟩] hc) W (ix2 r q)
      = dense F (extractStridedSlice ⟨2, ![133, 300]⟩ ![0, 0] W hs0) (ix2 r q)
        + dense A (extractStridedSlice ⟨2, ![300, 300]⟩ ![133, 0] W hs1) (ix2 r q) := by
  refine (sum_433 fun j => concatenate ⟨2, ![n, 433]⟩ (1 : Fin 2) [⟨⟨2, ![n, 133]⟩, F⟩, ⟨⟨2, ![n, 300]⟩, A⟩] hc (ix2 r j) * W (ix2 j q)).trans ?_
  refine congrArg₂ (fun a b : EReal => a + b) (Finset.sum_congr rfl fun k _ => ?_) (Finset.sum_congr rfl fun k _ => ?_)
  · show _ = F (ix2 r k) * extractStridedSlice ⟨2, ![133, 300]⟩ ![0, 0] W hs0 (ix2 k q)
    rw [joined_left F A hc r k ⟨k.val, by omega⟩ rfl, slice2_axis0_eq 0 W hs0 k q]
    exact congrArg (fun z : Fin 433 => F (ix2 r k) * W (ix2 z q)) (Fin.ext (Nat.zero_add k.val).symm)
  · show _ = A (ix2 r k) * extractStridedSlice ⟨2, ![300, 300]⟩ ![133, 0] W hs1 (ix2 k q)
    rw [joined_right F A hc r k ⟨133 + k.val, by omega⟩ rfl, slice2_axis0_eq 133 W hs1 k q]

/-- The readout spelt with the joined rows, the whole weights and the bias vector is the readout spelt with the two
    products and the bias row. -/
theorem readout_joined {n : ℕ} (F : Mat n 133) (A : Mat n 300) (W : Mat 433 300) (b : (⟨1, ![300]⟩ : Shape).Idx → EReal)
    (hc : Shape.Concatenates [(⟨2, ![n, 133]⟩ : Shape), ⟨2, ![n, 300]⟩] ⟨2, ![n, 433]⟩ (1 : Fin 2))
    (hs0 : (⟨2, ![433, 300]⟩ : Shape).Slices ![0, 0] ⟨2, ![133, 300]⟩)
    (hs1 : (⟨2, ![433, 300]⟩ : Shape).Slices ![133, 0] ⟨2, ![300, 300]⟩)
    (hb : (⟨1, ![300]⟩ : Shape).ShapeCasts ⟨2, ![1, 300]⟩) :
    readout F A (extractStridedSlice ⟨2, ![133, 300]⟩ ![0, 0] W hs0) (extractStridedSlice ⟨2, ![300, 300]⟩ ![133, 0] W hs1)
        (shapeCast ⟨2, ![1, 300]⟩ b hb)
      = act fun i => dense (a := n) (k := 433) (b := 300) (concatenate ⟨2, ![n, 433]⟩ (1 : Fin 2) [⟨⟨2, ![n, 133]⟩, F⟩, ⟨⟨2, ![n, 300]⟩, A⟩] hc) W i
          + b (ix1 (i 1)) := by
  funext i
  obtain ⟨r, q, rfl⟩ : ∃ (r : Fin n) (q : Fin 300), i = ix2 r q := ⟨i 0, i 1, eq_ix2 i⟩
  have e := dense_joined F A W hc hs0 hs1 r q
  have eb := shapeCast_a_1a_apply b hb 0 q
  unfold readout act
  show max (_ + _ + shapeCast ⟨2, ![1, 300]⟩ b hb (ix2 (0 : Fin 1) q)) 0 = max (_ + b (ix1 q)) 0
  rw [e, eb]

end Cert.Mpnn

end
-- ==== Proof.Region2.lean ====
/-
  The second message-update launch as a whole array.

  The grid has 50 points; point `t` reads rows `4000·t … 4000·t + 3999` of the combined messages and of the carried
  pre-activation and the whole of `W_h`, and writes the same rows of the new messages: the activation of the
  pre-activation row plus the product of the combined-message row with `W_h`. The row blocks tile the 200000 rows, so after
  the launch the output is `update inp mc W_h`.
-/
import proofs.«167756_j15530601742850_2_alg».proof.Proof.Gen.KernelIdeal.Frame
import proofs.«167756_j15530601742850_2_alg».proof.Proof.Body
import proofs.«167756_j15530601742850_2_alg».proof.Proof.Spec

set_option maxRecDepth 16384

noncomputable section

namespace Cert.KernelIdeal.Step2

open Cert.KernelIdeal Cert.KernelIdeal.Gen Cert.Mpnn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows are at block row `t`, the weights at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt_N (t : Fin cfg2.N) : t.val < 50 := lt_of_lt_of_eq t.isLt N_2

/-- Window 0's block at point `t` read at an entry: rows `4000·t … 4000·t + 3999` of its array. -/
theorem blk0_apply (c : Dev nD) (t : Fin cfg2.N) (x : S4000x300.Idx) (k : S200000x300.Idx)
    (hk0 : (k 0).val = 4000 * t.val + (x 0).val) (hk1 : (k 1).val = (x 1).val) :
    (iblk2 V c 0 t : Vec Ideal S4000x300 .bf16) x = (V c main_v53 : S200000x300.Idx → Elt Ideal .bf16) k := by
  have hi := idx_facts t
  unfold iblk2
  rw [View.read_apply]
  show V c main_v53 _ = V c main_v53 _
  congr 1
  funext a
  apply Fin.ext
  match a with
  | ⟨0, _⟩ => show win2_0.index t 0 * 4000 + 1 * (x 0).val = (k 0).val; rw [hi.1, hk0]; omega
  | ⟨1, _⟩ => show win2_0.index t 1 * 300 + 1 * (x 1).val = (k 1).val; rw [hi.2.1, hk1]; omega

/-- Window 1's block at point `t` read at an entry: rows `4000·t … 4000·t + 3999` of its array. -/
theorem blk1_apply (c : Dev nD) (t : Fin cfg2.N) (x : S4000x300.Idx) (k : S200000x300.Idx)
    (hk0 : (k 0).val = 4000 * t.val + (x 0).val) (hk1 : (k 1).val = (x 1).val) :
    (iblk2 V c 1 t : Vec Ideal S4000x300 .f32) x = (V c main_v0_0 : S200000x300.Idx → Elt Ideal .f32) k := by
  have hi := idx_facts t
  unfold iblk2
  rw [View.read_apply]
  show V c main_v0_0 _ = V c main_v0_0 _
  congr 1
  funext a
  apply Fin.ext
  match a with
  | ⟨0, _⟩ => show win2_1.index t 0 * 4000 + 1 * (x 0).val = (k 0).val; rw [hi.2.2.1, hk0]; omega
  | ⟨1, _⟩ => show win2_1.index t 1 * 300 + 1 * (x 1).val = (k 1).val; rw [hi.2.2.2.1, hk1]; omega

/-- Window 2's block at point `t` read at an entry: the whole array. -/
theorem blk2_apply (c : Dev nD) (t : Fin cfg2.N) (x : S300x300.Idx) (k : S300x300.Idx)
    (hk0 : (k 0).val = (x 0).val) (hk1 : (k 1).val = (x 1).val) :
    (iblk2 V c 2 t : Vec Ideal S300x300 .f32) x = (V c main_arg7 : S300x300.Idx → Elt Ideal .f32) k := by
  have hi := idx_facts t
  unfold iblk2
  rw [View.read_apply]
  show V c main_arg7 _ = V c main_arg7 _
  congr 1
  funext a
  apply Fin.ext
  match a with
  | ⟨0, _⟩ => show win2_2.index t 0 * 300 + 1 * (x 0).val = (k 0).val; rw [hi.2.2.2.2.1, hk0]; omega
  | ⟨1, _⟩ => show win2_2.index t 1 * 300 + 1 * (x 1).val = (k 1).val; rw [hi.2.2.2.2.2.1, hk1]; omega

/-- The combined messages, the carried pre-activation and the hidden weights as the launch finds them. -/
abbrev combined (c : Dev nD) : Mat 200000 300 := V c main_v53
abbrev carried (c : Dev nD) : Mat 200000 300 := V c main_v0_0
abbrev weights (c : Dev nD) : Mat 300 300 := V c main_arg7

/-- Entry (p, q) of the output block at point `t` is entry (4000·t + p, q) of the array. -/
theorem emb3 (t : Fin cfg2.N) (p : Fin 4000) (q : Fin 300) :
    ((cfg2.win 3).blk t).view.emb (ix2 p q) = (ix2 (n0 := 200000) (n1 := 300) ⟨4000 * t.val + p.val, by have := lt_N t; omega⟩ q : S200000x300.Idx) := by
  have hi := idx_facts t
  funext a
  apply Fin.ext
  match a with
  | ⟨0, _⟩ => show win2_3.index t 0 * 4000 + 1 * p.val = 4000 * t.val + p.val; rw [hi.2.2.2.2.2.2.1]; omega
  | ⟨1, _⟩ => show win2_3.index t 1 * 300 + 1 * q.val = q.val; rw [hi.2.2.2.2.2.2.2]; omega

/-- The two input blocks of the product at point `t`, at their literal types. -/
abbrev rows_dense_L (c : Dev nD) (t : Fin cfg2.N) : Vec Ideal S4000x300 .bf16 := iblk2 V c 0 t
abbrev rows_dense_R (c : Dev nD) (t : Fin cfg2.N) : Vec Ideal S300x300 .f32 := iblk2 V c 2 t

/-- The product of the block's rows with the weights is the block of the whole product. -/
theorem rows_dense (c : Dev nD) (t : Fin cfg2.N) (p : Fin 4000) (q : Fin 300) :
    ∑ k : Fin 300, rows_dense_L V c t (ix2 p k) * rows_dense_R V c t (ix2 k q)
      = dense (combined V c) (weights V c) (ix2 (n0 := 200000) (n1 := 300) ⟨4000 * t.val + p.val, by have := lt_N t; omega⟩ q) := by
  rw [dense_apply]
  exact Finset.sum_congr rfl fun k _ => congrArg₂ (fun a b : EReal => a * b)
    (blk0_apply V c t (ix2 p k) (ix2 (n0 := 200000) (n1 := 300) ⟨4000 * t.val + p.val, by have := lt_N t; omega⟩ k) rfl rfl)
    (blk2_apply V c t (ix2 k q) (ix2 (n0 := 300) (n1 := 300) k q) rfl rfl)

/-- What point `t` writes back is block `t` of the updated messages. -/
theorem flushed_msg (c : Dev nD) (t : Fin cfg2.N) :
    (dat2 V c).flushed 3 t = ((cfg2.win 3).blk t).view.read (Elt Ideal) (update (carried V c) (combined V c) (weights V c)) := by
  show (cfg2.win 3).cut (grid2.coords t) ((dat2 V c).after 3 t) = _
  rw [after2_3]
  unfold out2_3
  rw [View.canon_unit_zero hz]
  simp only [View.ld_unit_zero (S := S4000x300) hz, View.ld_unit_zero (S := S300x300) hz]
  funext y
  obtain ⟨p, q, rfl⟩ : ∃ (p : Fin 4000) (q : Fin 300), y = ix2 p q := ⟨y 0, y 1, eq_ix2 y⟩
  rw [View.read_apply, emb3]
  refine (Body.step2_msg (iblk2 V c 0 t) (iblk2 V c 2 t) (iblk2 V c 1 t) p q).trans ?_
  rw [rows_dense V c t p q,
    blk1_apply V c t (ix2 p q) (ix2 (n0 := 200000) (n1 := 300) ⟨4000 * t.val + p.val, by have := lt_N t; omega⟩ q) rfl rfl]
  rfl

/-- An index of the output array is in point `t`'s block iff each coordinate is in the block's range on its axis. -/
theorem mem_blk3 (t : Fin cfg2.N) (i : S200000x300.Idx) :
    i ∈ ((cfg2.win 3).blk t).view.set ↔ ∀ a : Fin 2, win2_3.index t a * S4000x300.size a ≤ (i a).val ∧ (i a).val < win2_3.index t a * S4000x300.size a + S4000x300.size a := by
  show i ∈ ((View.whole main_v54).slice (win2_3.rect t)).set ↔ _
  rw [View.set_slice_whole, Rect.mem_set_unit]
  exact Iff.rfl

/-- Row `r` lies in the block of point `r / 4000`. -/
theorem cover3 (i : S200000x300.Idx) : ∃ t : Fin cfg2.N, (cfg2.win 3).flush t = true ∧ i ∈ ((cfg2.win 3).blk t).view.set := by
  have hi0 : (i 0).val < 200000 := (i 0).isLt
  have hi1 : (i 1).val < 300 := (i 1).isLt
  have hN : cfg2.N = 50 := N_2
  refine ⟨⟨(i 0).val / 4000, by rw [hN]; omega⟩, flush2_3 _, ?_⟩
  have hi := idx_facts ⟨(i 0).val / 4000, by rw [hN]; omega⟩
  rw [mem_blk3]
  intro a
  match a with
  | ⟨0, _⟩ => show win2_3.index _ 0 * 4000 ≤ (i 0).val ∧ (i 0).val < win2_3.index _ 0 * 4000 + 4000; rw [hi.2.2.2.2.2.2.1]; show (i 0).val / 4000 * 4000 ≤ (i 0).val ∧ (i 0).val < (i 0).val / 4000 * 4000 + 4000; omega
  | ⟨1, _⟩ => show win2_3.index _ 1 * 300 ≤ (i 1).val ∧ (i 1).val < win2_3.index _ 1 * 300 + 300; rw [hi.2.2.2.2.2.2.2]; omega

/-- After the launch the output holds the updated messages. -/
theorem msg_array (c : Dev nD) : (dat2 V c).arrAt 3 cfg2.N = update (carried V c) (combined V c) (weights V c) :=
  (dat2 V c).arrAt_eq_of_cover 3 (update (carried V c) (combined V c) (weights V c)) (fun t _ => flushed_msg V c t) cover3

end Cert.KernelIdeal.Step2

end
-- ==== Proof.Region1.lean ====
/-
  The first message-update launch as a whole array.

  The grid has 50 points; point `t` reads rows `4000·t … 4000·t + 3999` of the combined messages and of the carried
  pre-activation and the whole of `W_h`, and writes the same rows of the new messages: the activation of the
  pre-activation row plus the product of the combined-message row with `W_h`. The row blocks tile the 200000 rows, so after
  the launch the output is `update inp mc W_h`.
-/
import proofs.«167756_j15530601742850_2_alg».proof.Proof.Gen.KernelIdeal.Frame
import proofs.«167756_j15530601742850_2_alg».proof.Proof.Body
import proofs.«167756_j15530601742850_2_alg».proof.Proof.Spec

set_option maxRecDepth 16384

noncomputable section

namespace Cert.KernelIdeal.Step1

open Cert.KernelIdeal Cert.KernelIdeal.Gen Cert.Mpnn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows are at block row `t`, the weights at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt_N (t : Fin cfg1.N) : t.val < 50 := lt_of_lt_of_eq t.isLt N_1

/-- Window 0's block at point `t` read at an entry: rows `4000·t … 4000·t + 3999` of its array. -/
theorem blk0_apply (c : Dev nD) (t : Fin cfg1.N) (x : S4000x300.Idx) (k : S200000x300.Idx)
    (hk0 : (k 0).val = 4000 * t.val + (x 0).val) (hk1 : (k 1).val = (x 1).val) :
    (iblk1 V c 0 t : Vec Ideal S4000x300 .bf16) x = (V c main_v26 : S200000x300.Idx → Elt Ideal .bf16) k := by
  have hi := idx_facts t
  unfold iblk1
  rw [View.read_apply]
  show V c main_v26 _ = V c main_v26 _
  congr 1
  funext a
  apply Fin.ext
  match a with
  | ⟨0, _⟩ => show win1_0.index t 0 * 4000 + 1 * (x 0).val = (k 0).val; rw [hi.1, hk0]; omega
  | ⟨1, _⟩ => show win1_0.index t 1 * 300 + 1 * (x 1).val = (k 1).val; rw [hi.2.1, hk1]; omega

/-- Window 1's block at point `t` read at an entry: rows `4000·t … 4000·t + 3999` of its array. -/
theorem blk1_apply (c : Dev nD) (t : Fin cfg1.N) (x : S4000x300.Idx) (k : S200000x300.Idx)
    (hk0 : (k 0).val = 4000 * t.val + (x 0).val) (hk1 : (k 1).val = (x 1).val) :
    (iblk1 V c 1 t : Vec Ideal S4000x300 .f32) x = (V c main_v0_0 : S200000x300.Idx → Elt Ideal .f32) k := by
  have hi := idx_facts t
  unfold iblk1
  rw [View.read_apply]
  show V c main_v0_0 _ = V c main_v0_0 _
  congr 1
  funext a
  apply Fin.ext
  match a with
  | ⟨0, _⟩ => show win1_1.index t 0 * 4000 + 1 * (x 0).val = (k 0).val; rw [hi.2.2.1, hk0]; omega
  | ⟨1, _⟩ => show win1_1.index t 1 * 300 + 1 * (x 1).val = (k 1).val; rw [hi.2.2.2.1, hk1]; omega

/-- Window 2's block at point `t` read at an entry: the whole array. -/
theorem blk2_apply (c : Dev nD) (t : Fin cfg1.N) (x : S300x300.Idx) (k : S300x300.Idx)
    (hk0 : (k 0).val = (x 0).val) (hk1 : (k 1).val = (x 1).val) :
    (iblk1 V c 2 t : Vec Ideal S300x300 .f32) x = (V c main_arg7 : S300x300.Idx → Elt Ideal .f32) k := by
  have hi := idx_facts t
  unfold iblk1
  rw [View.read_apply]
  show V c main_arg7 _ = V c main_arg7 _
  congr 1
  funext a
  apply Fin.ext
  match a with
  | ⟨0, _⟩ => show win1_2.index t 0 * 300 + 1 * (x 0).val = (k 0).val; rw [hi.2.2.2.2.1, hk0]; omega
  | ⟨1, _⟩ => show win1_2.index t 1 * 300 + 1 * (x 1).val = (k 1).val; rw [hi.2.2.2.2.2.1, hk1]; omega

/-- The combined messages, the carried pre-activation and the hidden weights as the launch finds them. -/
abbrev combined (c : Dev nD) : Mat 200000 300 := V c main_v26
abbrev carried (c : Dev nD) : Mat 200000 300 := V c main_v0_0
abbrev weights (c : Dev nD) : Mat 300 300 := V c main_arg7

/-- Entry (p, q) of the output block at point `t` is entry (4000·t + p, q) of the array. -/
theorem emb3 (t : Fin cfg1.N) (p : Fin 4000) (q : Fin 300) :
    ((cfg1.win 3).blk t).view.emb (ix2 p q) = (ix2 (n0 := 200000) (n1 := 300) ⟨4000 * t.val + p.val, by have := lt_N t; omega⟩ q : S200000x300.Idx) := by
  have hi := idx_facts t
  funext a
  apply Fin.ext
  match a with
  | ⟨0, _⟩ => show win1_3.index t 0 * 4000 + 1 * p.val = 4000 * t.val + p.val; rw [hi.2.2.2.2.2.2.1]; omega
  | ⟨1, _⟩ => show win1_3.index t 1 * 300 + 1 * q.val = q.val; rw [hi.2.2.2.2.2.2.2]; omega

/-- The two input blocks of the product at point `t`, at their literal types. -/
abbrev rows_dense_L (c : Dev nD) (t : Fin cfg1.N) : Vec Ideal S4000x300 .bf16 := iblk1 V c 0 t
abbrev rows_dense_R (c : Dev nD) (t : Fin cfg1.N) : Vec Ideal S300x300 .f32 := iblk1 V c 2 t

/-- The product of the block's rows with the weights is the block of the whole product. -/
theorem rows_dense (c : Dev nD) (t : Fin cfg1.N) (p : Fin 4000) (q : Fin 300) :
    ∑ k : Fin 300, rows_dense_L V c t (ix2 p k) * rows_dense_R V c t (ix2 k q)
      = dense (combined V c) (weights V c) (ix2 (n0 := 200000) (n1 := 300) ⟨4000 * t.val + p.val, by have := lt_N t; omega⟩ q) := by
  rw [dense_apply]
  exact Finset.sum_congr rfl fun k _ => congrArg₂ (fun a b : EReal => a * b)
    (blk0_apply V c t (ix2 p k) (ix2 (n0 := 200000) (n1 := 300) ⟨4000 * t.val + p.val, by have := lt_N t; omega⟩ k) rfl rfl)
    (blk2_apply V c t (ix2 k q) (ix2 (n0 := 300) (n1 := 300) k q) rfl rfl)

/-- What point `t` writes back is block `t` of the updated messages. -/
theorem flushed_msg (c : Dev nD) (t : Fin cfg1.N) :
    (dat1 V c).flushed 3 t = ((cfg1.win 3).blk t).view.read (Elt Ideal) (update (carried V c) (combined V c) (weights V c)) := by
  show (cfg1.win 3).cut (grid1.coords t) ((dat1 V c).after 3 t) = _
  rw [after1_3]
  unfold out1_3
  rw [View.canon_unit_zero hz]
  simp only [View.ld_unit_zero (S := S4000x300) hz, View.ld_unit_zero (S := S300x300) hz]
  funext y
  obtain ⟨p, q, rfl⟩ : ∃ (p : Fin 4000) (q : Fin 300), y = ix2 p q := ⟨y 0, y 1, eq_ix2 y⟩
  rw [View.read_apply, emb3]
  refine (Body.step1_msg (iblk1 V c 0 t) (iblk1 V c 2 t) (iblk1 V c 1 t) p q).trans ?_
  rw [rows_dense V c t p q,
    blk1_apply V c t (ix2 p q) (ix2 (n0 := 200000) (n1 := 300) ⟨4000 * t.val + p.val, by have := lt_N t; omega⟩ q) rfl rfl]
  rfl

/-- An index of the output array is in point `t`'s block iff each coordinate is in the block's range on its axis. -/
theorem mem_blk3 (t : Fin cfg1.N) (i : S200000x300.Idx) :
    i ∈ ((cfg1.win 3).blk t).view.set ↔ ∀ a : Fin 2, win1_3.index t a * S4000x300.size a ≤ (i a).val ∧ (i a).val < win1_3.index t a * S4000x300.size a + S4000x300.size a := by
  show i ∈ ((View.whole main_v27).slice (win1_3.rect t)).set ↔ _
  rw [View.set_slice_whole, Rect.mem_set_unit]
  exact Iff.rfl

/-- Row `r` lies in the block of point `r / 4000`. -/
theorem cover3 (i : S200000x300.Idx) : ∃ t : Fin cfg1.N, (cfg1.win 3).flush t = true ∧ i ∈ ((cfg1.win 3).blk t).view.set := by
  have hi0 : (i 0).val < 200000 := (i 0).isLt
  have hi1 : (i 1).val < 300 := (i 1).isLt
  have hN : cfg1.N = 50 := N_1
  refine ⟨⟨(i 0).val / 4000, by rw [hN]; omega⟩, flush1_3 _, ?_⟩
  have hi := idx_facts ⟨(i 0).val / 4000, by rw [hN]; omega⟩
  rw [mem_blk3]
  intro a
  match a with
  | ⟨0, _⟩ => show win1_3.index _ 0 * 4000 ≤ (i 0).val ∧ (i 0).val < win1_3.index _ 0 * 4000 + 4000; rw [hi.2.2.2.2.2.2.1]; show (i 0).val / 4000 * 4000 ≤ (i 0).val ∧ (i 0).val < (i 0).val / 4000 * 4000 + 4000; omega
  | ⟨1, _⟩ => show win1_3.index _ 1 * 300 ≤ (i 1).val ∧ (i 1).val < win1_3.index _ 1 * 300 + 300; rw [hi.2.2.2.2.2.2.2]; omega

/-- After the launch the output holds the updated messages. -/
theorem msg_array (c : Dev nD) : (dat1 V c).arrAt 3 cfg1.N = update (carried V c) (combined V c) (weights V c) :=
  (dat1 V c).arrAt_eq_of_cover 3 (update (carried V c) (combined V c) (weights V c)) (fun t _ => flushed_msg V c t) cover3

end Cert.KernelIdeal.Step1

end
-- ==== Proof.Region0.lean ====
/-
  The bond-initialisation launch as whole arrays.

  The grid has 50 points; point `t` reads rows `4000·t … 4000·t + 3999` of the bond features and the whole of `W_i`,
  and writes the same rows of two outputs: the product (the carried pre-activation) and its activation (the first
  messages). The row blocks tile the 200000 rows, so after the launch the first output is `dense X W_i` and the second
  `act (dense X W_i)`, whatever the arrays held before.
-/
import proofs.«167756_j15530601742850_2_alg».proof.Proof.Gen.KernelIdeal.Frame
import proofs.«167756_j15530601742850_2_alg».proof.Proof.Body
import proofs.«167756_j15530601742850_2_alg».proof.Proof.Spec

set_option maxRecDepth 16384

noncomputable section

namespace Cert.KernelIdeal.Init

open Cert.KernelIdeal Cert.KernelIdeal.Gen Cert.Mpnn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows are at block row `t`, the weights at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem lt_N (t : Fin cfg0.N) : t.val < 50 := lt_of_lt_of_eq t.isLt N_0

/-- Window 0's block at point `t` read at an entry: rows `4000·t … 4000·t + 3999` of its array. -/
theorem blk0_apply (c : Dev nD) (t : Fin cfg0.N) (x : S4000x147.Idx) (k : S200000x147.Idx)
    (hk0 : (k 0).val = 4000 * t.val + (x 0).val) (hk1 : (k 1).val = (x 1).val) :
    (iblk0 V c 0 t : Vec Ideal S4000x147 .f32) x = (V c main_arg1 : S200000x147.Idx → Elt Ideal .f32) k := by
  have hi := idx_facts t
  unfold iblk0
  rw [View.read_apply]
  show V c main_arg1 _ = V c main_arg1 _
  congr 1
  funext a
  apply Fin.ext
  match a with
  | ⟨0, _⟩ => show win0_0.index t 0 * 4000 + 1 * (x 0).val = (k 0).val; rw [hi.1, hk0]; omega
  | ⟨1, _⟩ => show win0_0.index t 1 * 147 + 1 * (x 1).val = (k 1).val; rw [hi.2.1, hk1]; omega

/-- Window 1's block at point `t` read at an entry: the whole array. -/
theorem blk1_apply (c : Dev nD) (t : Fin cfg0.N) (x : S147x300.Idx) (k : S147x300.Idx)
    (hk0 : (k 0).val = (x 0).val) (hk1 : (k 1).val = (x 1).val) :
    (iblk0 V c 1 t : Vec Ideal S147x300 .f32) x = (V c main_arg6 : S147x300.Idx → Elt Ideal .f32) k := by
  have hi := idx_facts t
  unfold iblk0
  rw [View.read_apply]
  show V c main_arg6 _ = V c main_arg6 _
  congr 1
  funext a
  apply Fin.ext
  match a with
  | ⟨0, _⟩ => show win0_1.index t 0 * 147 + 1 * (x 0).val = (k 0).val; rw [hi.2.2.1, hk0]; omega
  | ⟨1, _⟩ => show win0_1.index t 1 * 300 + 1 * (x 1).val = (k 1).val; rw [hi.2.2.2.1, hk1]; omega

/-- The bond features and the input weights as the launch finds them. -/
abbrev feats (c : Dev nD) : Mat 200000 147 := V c main_arg1
abbrev weights (c : Dev nD) : Mat 147 300 := V c main_arg6

/-- Entry (p, q) of an output block at point `t` is entry (4000·t + p, q) of the array. -/
theorem emb2 (t : Fin cfg0.N) (p : Fin 4000) (q : Fin 300) :
    ((cfg0.win 2).blk t).view.emb (ix2 p q) = (ix2 (n0 := 200000) (n1 := 300) ⟨4000 * t.val + p.val, by have := lt_N t; omega⟩ q : S200000x300.Idx) := by
  have hi := idx_facts t
  funext a
  apply Fin.ext
  match a with
  | ⟨0, _⟩ => show win0_2.index t 0 * 4000 + 1 * p.val = 4000 * t.val + p.val; rw [hi.2.2.2.2.1]; omega
  | ⟨1, _⟩ => show win0_2.index t 1 * 300 + 1 * q.val = q.val; rw [hi.2.2.2.2.2.1]; omega
theorem emb3 (t : Fin cfg0.N) (p : Fin 4000) (q : Fin 300) :
    ((cfg0.win 3).blk t).view.emb (ix2 p q) = (ix2 (n0 := 200000) (n1 := 300) ⟨4000 * t.val + p.val, by have := lt_N t; omega⟩ q : S200000x300.Idx) := by
  have hi := idx_facts t
  funext a
  apply Fin.ext
  match a with
  | ⟨0, _⟩ => show win0_3.index t 0 * 4000 + 1 * p.val = 4000 * t.val + p.val; rw [hi.2.2.2.2.2.2.1]; omega
  | ⟨1, _⟩ => show win0_3.index t 1 * 300 + 1 * q.val = q.val; rw [hi.2.2.2.2.2.2.2]; omega

/-- The two input blocks of the product at point `t`, at their literal types. -/
abbrev rows_dense_L (c : Dev nD) (t : Fin cfg0.N) : Vec Ideal S4000x147 .f32 := iblk0 V c 0 t
abbrev rows_dense_R (c : Dev nD) (t : Fin cfg0.N) : Vec Ideal S147x300 .f32 := iblk0 V c 1 t

/-- The product of the block's rows with the weights is the block of the whole product. -/
theorem rows_dense (c : Dev nD) (t : Fin cfg0.N) (p : Fin 4000) (q : Fin 300) :
    ∑ k : Fin 147, rows_dense_L V c t (ix2 p k) * rows_dense_R V c t (ix2 k q)
      = dense (feats V c) (weights V c) (ix2 (n0 := 200000) (n1 := 300) ⟨4000 * t.val + p.val, by have := lt_N t; omega⟩ q) := by
  rw [dense_apply]
  exact Finset.sum_congr rfl fun k _ => congrArg₂ (fun a b : EReal => a * b)
    (blk0_apply V c t (ix2 p k) (ix2 (n0 := 200000) (n1 := 147) ⟨4000 * t.val + p.val, by have := lt_N t; omega⟩ k) rfl rfl)
    (blk1_apply V c t (ix2 k q) (ix2 (n0 := 147) (n1 := 300) k q) rfl rfl)

/-- What point `t` writes back to the first output is block `t` of the product. -/
theorem flushed_pre (c : Dev nD) (t : Fin cfg0.N) :
    (dat0 V c).flushed 2 t = ((cfg0.win 2).blk t).view.read (Elt Ideal) (dense (feats V c) (weights V c)) := by
  show (cfg0.win 2).cut (grid0.coords t) ((dat0 V c).after 2 t) = _
  rw [after0_2]
  unfold out0_2
  rw [View.canon_unit_zero hz]
  simp only [View.ld_unit_zero (S := S4000x147) hz, View.ld_unit_zero (S := S147x300) hz]
  funext y
  obtain ⟨p, q, rfl⟩ : ∃ (p : Fin 4000) (q : Fin 300), y = ix2 p q := ⟨y 0, y 1, eq_ix2 y⟩
  rw [View.read_apply, emb2]
  exact (Body.init_pre (iblk0 V c 0 t) (iblk0 V c 1 t) p q).trans (rows_dense V c t p q)

/-- What point `t` writes back to the second output is block `t` of the activated product. -/
theorem flushed_msg (c : Dev nD) (t : Fin cfg0.N) :
    (dat0 V c).flushed 3 t = ((cfg0.win 3).blk t).view.read (Elt Ideal) (act (dense (feats V c) (weights V c))) := by
  show (cfg0.win 3).cut (grid0.coords t) ((dat0 V c).after 3 t) = _
  rw [after0_3]
  unfold out0_3
  rw [View.canon_unit_zero hz]
  simp only [View.ld_unit_zero (S := S4000x147) hz, View.ld_unit_zero (S := S147x300) hz]
  funext y
  obtain ⟨p, q, rfl⟩ : ∃ (p : Fin 4000) (q : Fin 300), y = ix2 p q := ⟨y 0, y 1, eq_ix2 y⟩
  rw [View.read_apply, emb3]
  refine (Body.init_msg (iblk0 V c 0 t) (iblk0 V c 1 t) p q).trans ?_
  rw [rows_dense V c t p q]
  rfl

/-- An index of an output array is in point `t`'s block iff each coordinate is in the block's range on its axis. -/
theorem mem_blk2 (t : Fin cfg0.N) (i : S200000x300.Idx) :
    i ∈ ((cfg0.win 2).blk t).view.set ↔ ∀ a : Fin 2, win0_2.index t a * S4000x300.size a ≤ (i a).val ∧ (i a).val < win0_2.index t a * S4000x300.size a + S4000x300.size a := by
  show i ∈ ((View.whole main_v0_0).slice (win0_2.rect t)).set ↔ _
  rw [View.set_slice_whole, Rect.mem_set_unit]
  exact Iff.rfl
theorem mem_blk3 (t : Fin cfg0.N) (i : S200000x300.Idx) :
    i ∈ ((cfg0.win 3).blk t).view.set ↔ ∀ a : Fin 2, win0_3.index t a * S4000x300.size a ≤ (i a).val ∧ (i a).val < win0_3.index t a * S4000x300.size a + S4000x300.size a := by
  show i ∈ ((View.whole main_v0_1).slice (win0_3.rect t)).set ↔ _
  rw [View.set_slice_whole, Rect.mem_set_unit]
  exact Iff.rfl

/-- Row `r` lies in the block of point `r / 4000`. -/
theorem cover2 (i : S200000x300.Idx) : ∃ t : Fin cfg0.N, (cfg0.win 2).flush t = true ∧ i ∈ ((cfg0.win 2).blk t).view.set := by
  have hi0 : (i 0).val < 200000 := (i 0).isLt
  have hi1 : (i 1).val < 300 := (i 1).isLt
  have hN : cfg0.N = 50 := N_0
  refine ⟨⟨(i 0).val / 4000, by rw [hN]; omega⟩, flush0_2 _, ?_⟩
  have hi := idx_facts ⟨(i 0).val / 4000, by rw [hN]; omega⟩
  rw [mem_blk2]
  intro a
  match a with
  | ⟨0, _⟩ => show win0_2.index _ 0 * 4000 ≤ (i 0).val ∧ (i 0).val < win0_2.index _ 0 * 4000 + 4000; rw [hi.2.2.2.2.1]; show (i 0).val / 4000 * 4000 ≤ (i 0).val ∧ (i 0).val < (i 0).val / 4000 * 4000 + 4000; omega
  | ⟨1, _⟩ => show win0_2.index _ 1 * 300 ≤ (i 1).val ∧ (i 1).val < win0_2.index _ 1 * 300 + 300; rw [hi.2.2.2.2.2.1]; omega
theorem cover3 (i : S200000x300.Idx) : ∃ t : Fin cfg0.N, (cfg0.win 3).flush t = true ∧ i ∈ ((cfg0.win 3).blk t).view.set := by
  have hi0 : (i 0).val < 200000 := (i 0).isLt
  have hi1 : (i 1).val < 300 := (i 1).isLt
  have hN : cfg0.N = 50 := N_0
  refine ⟨⟨(i 0).val / 4000, by rw [hN]; omega⟩, flush0_3 _, ?_⟩
  have hi := idx_facts ⟨(i 0).val / 4000, by rw [hN]; omega⟩
  rw [mem_blk3]
  intro a
  match a with
  | ⟨0, _⟩ => show win0_3.index _ 0 * 4000 ≤ (i 0).val ∧ (i 0).val < win0_3.index _ 0 * 4000 + 4000; rw [hi.2.2.2.2.2.2.1]; show (i 0).val / 4000 * 4000 ≤ (i 0).val ∧ (i 0).val < (i 0).val / 4000 * 4000 + 4000; omega
  | ⟨1, _⟩ => show win0_3.index _ 1 * 300 ≤ (i 1).val ∧ (i 1).val < win0_3.index _ 1 * 300 + 300; rw [hi.2.2.2.2.2.2.2]; omega

/-- After the launch the first output is the product of the bond features with `W_i`. -/
theorem pre_array (c : Dev nD) : (dat0 V c).arrAt 2 cfg0.N = dense (feats V c) (weights V c) :=
  (dat0 V c).arrAt_eq_of_cover 2 (dense (feats V c) (weights V c)) (fun t _ => flushed_pre V c t) cover2

/-- After the launch the second output is its activation: the first messages. -/
theorem msg_array (c : Dev nD) : (dat0 V c).arrAt 3 cfg0.N = act (dense (feats V c) (weights V c)) :=
  (dat0 V c).arrAt_eq_of_cover 3 (act (dense (feats V c) (weights V c))) (fun t _ => flushed_msg V c t) cover3

end Cert.KernelIdeal.Init

end
-- ==== Proof.Stage1.lean ====
/-
  The buffers after the bond-initialisation launch and after the first stretch of host operations.

  After the launch the two outputs hold the first product and the first messages, which are the reference's first two
  stages of the same arguments; every other buffer is as launched. The host stretch then gathers the six neighbour
  messages of every atom and sums them, gathers that sum at each bond's source atom, subtracts the reverse bond's
  message, and changes the float format, which is the identity on extended reals: operation by operation this is the
  reference's combination of the first messages, so the combined messages are the reference's stage of the arguments.
-/
import proofs.«167756_j15530601742850_2_alg».proof.Proof.Gen.KernelIdeal.Frame
import proofs.«167756_j15530601742850_2_alg».proof.Proof.Region0
import proofs.«167756_j15530601742850_2_alg».proof.Proof.RefValue
import Idealize.ShloMosaic.Lib.StableHlo.Run

set_option maxRecDepth 16384

noncomputable section

namespace Cert.KernelIdeal.Stage1

open Cert.KernelIdeal Cert.KernelIdeal.Gen Cert.Mpnn
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first product is the reference's. -/
theorem pre1 (c : Dev nD) : W1 m ρ c (Proc.devRef .tc main_v0_0) = Cert.ReferenceIdeal.Read.val_main_v0 (F := Ideal) (m ((c : Thread nD τ).loc main_arg1)) (m ((c : Thread nD τ).loc main_arg6)) :=
  ((W1_arr m ρ c 2).trans (Init.pre_array (V0 m ρ) c)).trans (Cert.ReferenceIdeal.RefValue.pre_eq _ _).symm

/-- The first messages are the reference's. -/
theorem msg1 (c : Dev nD) : W1 m ρ c (Proc.devRef .tc main_v0_1) = Cert.ReferenceIdeal.Read.val_main_v1 (F := Ideal) (m ((c : Thread nD τ).loc main_arg1)) (m ((c : Thread nD τ).loc main_arg6)) :=
  ((W1_arr m ρ c 3).trans (Init.msg_array (V0 m ρ) c)).trans (Cert.ReferenceIdeal.RefValue.msg0_eq _ _).symm

theorem arg0_1 (c : Dev nD) : W1 m ρ c (Proc.devRef .tc main_arg0) = m ((c : Thread nD τ).loc main_arg0) := W1_of_ne m ρ c main_arg0 (by decide)
theorem arg2_1 (c : Dev nD) : W1 m ρ c (Proc.devRef .tc main_arg2) = m ((c : Thread nD τ).loc main_arg2) := W1_of_ne m ρ c main_arg2 (by decide)
theorem arg3_1 (c : Dev nD) : W1 m ρ c (Proc.devRef .tc main_arg3) = m ((c : Thread nD τ).loc main_arg3) := W1_of_ne m ρ c main_arg3 (by decide)
theorem arg4_1 (c : Dev nD) : W1 m ρ c (Proc.devRef .tc main_arg4) = m ((c : Thread nD τ).loc main_arg4) := W1_of_ne m ρ c main_arg4 (by decide)
theorem arg5_1 (c : Dev nD) : W1 m ρ c (Proc.devRef .tc main_arg5) = m ((c : Thread nD τ).loc main_arg5) := W1_of_ne m ρ c main_arg5 (by decide)
theorem arg7_1 (c : Dev nD) : W1 m ρ c (Proc.devRef .tc main_arg7) = m ((c : Thread nD τ).loc main_arg7) := W1_of_ne m ρ c main_arg7 (by decide)
theorem arg8_1 (c : Dev nD) : W1 m ρ c (Proc.devRef .tc main_arg8) = m ((c : Thread nD τ).loc main_arg8) := W1_of_ne m ρ c main_arg8 (by decide)
theorem arg9_1 (c : Dev nD) : W1 m ρ c (Proc.devRef .tc main_arg9) = m ((c : Thread nD τ).loc main_arg9) := W1_of_ne m ρ c main_arg9 (by decide)

/-- The combined messages of the first round are the reference's. -/
theorem combined2 (c : Dev nD) : W2 m ρ c (Proc.devRef .tc main_v26) = Cert.ReferenceIdeal.Read.val_main_v24 (F := Ideal) (m ((c : Thread nD τ).loc main_arg1)) (m ((c : Thread nD τ).loc main_arg2)) (m ((c : Thread nD τ).loc main_arg3)) (m ((c : Thread nD τ).loc main_arg4)) (m ((c : Thread nD τ).loc main_arg6)) := by
  show StableHlo.after hostOps1 (W1 m ρ c) (Proc.devRef .tc main_v26) = _
  simp only [hostOps1]
  after_results_simp
  rw [msg1 m ρ c, arg2_1 m ρ c, arg3_1 m ρ c, arg4_1 m ρ c]
  rfl

/-- The first product is carried across the host stretch. -/
theorem pre2 (c : Dev nD) : W2 m ρ c (Proc.devRef .tc main_v0_0) = Cert.ReferenceIdeal.Read.val_main_v0 (F := Ideal) (m ((c : Thread nD τ).loc main_arg1)) (m ((c : Thread nD τ).loc main_arg6)) :=
  (StableHlo.after_of_forall_not_mem _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (pre1 m ρ c)

theorem arg0_2 (c : Dev nD) : W2 m ρ c (Proc.devRef .tc main_arg0) = m ((c : Thread nD τ).loc main_arg0) :=
  (StableHlo.after_of_forall_not_mem _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (arg0_1 m ρ c)
theorem arg2_2 (c : Dev nD) : W2 m ρ c (Proc.devRef .tc main_arg2) = m ((c : Thread nD τ).loc main_arg2) :=
  (StableHlo.after_of_forall_not_mem _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (arg2_1 m ρ c)
theorem arg3_2 (c : Dev nD) : W2 m ρ c (Proc.devRef .tc main_arg3) = m ((c : Thread nD τ).loc main_arg3) :=
  (StableHlo.after_of_forall_not_mem _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (arg3_1 m ρ c)
theorem arg4_2 (c : Dev nD) : W2 m ρ c (Proc.devRef .tc main_arg4) = m ((c : Thread nD τ).loc main_arg4) :=
  (StableHlo.after_of_forall_not_mem _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (arg4_1 m ρ c)
theorem arg5_2 (c : Dev nD) : W2 m ρ c (Proc.devRef .tc main_arg5) = m ((c : Thread nD τ).loc main_arg5) :=
  (StableHlo.after_of_forall_not_mem _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (arg5_1 m ρ c)
theorem arg7_2 (c : Dev nD) : W2 m ρ c (Proc.devRef .tc main_arg7) = m ((c : Thread nD τ).loc main_arg7) :=
  (StableHlo.after_of_forall_not_mem _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (arg7_1 m ρ c)
theorem arg8_2 (c : Dev nD) : W2 m ρ c (Proc.devRef .tc main_arg8) = m ((c : Thread nD τ).loc main_arg8) :=
  (StableHlo.after_of_forall_not_mem _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (arg8_1 m ρ c)
theorem arg9_2 (c : Dev nD) : W2 m ρ c (Proc.devRef .tc main_arg9) = m ((c : Thread nD τ).loc main_arg9) :=
  (StableHlo.after_of_forall_not_mem _ _ (List.forall_iff_forall_mem.mp (by
    simp only [hostOps1, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (arg9_1 m ρ c)

end Cert.KernelIdeal.Stage1

end
-- ==== Proof.Stage2.lean ====
/-
  The buffers after the first message-update launch and after the second stretch of host operations.

  The launch leaves `update` of the carried first product, the combined messages and `W_h`, which is the reference's
  first round; the launch's input arrays and every other buffer are as it found them. The host stretch combines the new
  messages as the first stretch combined the first ones, which is the reference's second combination.
-/
import proofs.«167756_j15530601742850_2_alg».proof.Proof.Gen.KernelIdeal.Frame
import proofs.«167756_j15530601742850_2_alg».proof.Proof.Region1
import proofs.«167756_j15530601742850_2_alg».proof.Proof.RefValue
import proofs.«167756_j15530601742850_2_alg».proof.Proof.Stage1
import Idealize.ShloMosaic.Lib.StableHlo.Run

set_option maxRecDepth 16384

noncomputable section

namespace Cert.KernelIdeal.Stage2

open Cert.KernelIdeal Cert.KernelIdeal.Gen Cert.Mpnn
open Idealize.ShloMosaic Idealize.ShloMosaic.TcCoe Idealize.ShloMosaic.ValueIdx Idealize.SL.Sem

variable (m : (ℓ : Loc nD τ sig) → Buf (Elt Ideal) ℓ) (ρ : Dev nD → PrngReg)

/-- The messages after the first round are the reference's. -/
theorem msg3 (c : Dev nD) : W3 m ρ c (Proc.devRef .tc main_v27) = Cert.ReferenceIdeal.Read.val_main_v27 (F := Ideal) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  refine ((W3_arr m ρ c 3).trans (Step1.msg_array (V2 m ρ) c)).trans ?_
  show update (W2 m ρ c (Proc.devRef .tc main_v0_0)) (W2 m ρ c (Proc.devRef .tc main_v26)) (W2 m ρ c (Proc.devRef .tc main_arg7)) = _
  rw [Stage1.pre2 m ρ c, Stage1.combined2 m ρ c, Stage1.arg7_2 m ρ c]
  exact (Cert.ReferenceIdeal.RefValue.msg1_eq _ _ _ _ _ _).symm

theorem pre3 (c : Dev nD) : W3 m ρ c (Proc.devRef .tc main_v0_0) = Cert.ReferenceIdeal.Read.val_main_v0 (F := Ideal) (m ((c : Thread nD τ).loc main_arg1)) (m ((c : Thread nD τ).loc main_arg6)) :=
  ((W3_arr m ρ c 1).trans (((dat1 (V2 m ρ) c).arrAt_in 1 rfl _).trans (A_eq1 (V2 m ρ) c 1))).trans (Stage1.pre2 m ρ c)
theorem arg7_3 (c : Dev nD) : W3 m ρ c (Proc.devRef .tc main_arg7) = m ((c : Thread nD τ).loc main_arg7) :=
  ((W3_arr m ρ c 2).trans (((dat1 (V2 m ρ) c).arrAt_in 2 rfl _).trans (A_eq1 (V2 m ρ) c 2))).trans (Stage1.arg7_2 m ρ c)
theorem arg0_3 (c : Dev nD) : W3 m ρ c (Proc.devRef .tc main_arg0) = m ((c : Thread nD τ).loc main_arg0) :=
  (W3_of_ne m ρ c main_arg0 (by decide)).trans (Stage1.arg0_2 m ρ c)
theorem arg2_3 (c : Dev nD) : W3 m ρ c (Proc.devRef .tc main_arg2) = m ((c : Thread nD τ).loc main_arg2) :=
  (W3_of_ne m ρ c main_arg2 (by decide)).trans (Stage1.arg2_2 m ρ c)
theorem arg3_3 (c : Dev nD) : W3 m ρ c (Proc.devRef .tc main_arg3) = m ((c : Thread nD τ).loc main_arg3) :=
  (W3_of_ne m ρ c main_arg3 (by decide)).trans (Stage1.arg3_2 m ρ c)
theorem arg4_3 (c : Dev nD) : W3 m ρ c (Proc.devRef .tc main_arg4) = m ((c : Thread nD τ).loc main_arg4) :=
  (W3_of_ne m ρ c main_arg4 (by decide)).trans (Stage1.arg4_2 m ρ c)
theorem arg5_3 (c : Dev nD) : W3 m ρ c (Proc.devRef .tc main_arg5) = m ((c : Thread nD τ).loc main_arg5) :=
  (W3_of_ne m ρ c main_arg5 (by decide)).trans (Stage1.arg5_2 m ρ c)
theorem arg8_3 (c : Dev nD) : W3 m ρ c (Proc.devRef .tc main_arg8) = m ((c : Thread nD τ).loc main_arg8) :=
  (W3_of_ne m ρ c main_arg8 (by decide)).trans (Stage1.arg8_2 m ρ c)
theorem arg9_3 (c : Dev nD) : W3 m ρ c (Proc.devRef .tc main_arg9) = m ((c : Thread nD τ).loc main_arg9) :=
  (W3_of_ne m ρ c main_arg9 (by decide)).trans (Stage1.arg9_2 m ρ c)

/-- The combined messages of the second round are the reference's. -/
theorem combined4 (c : Dev nD) : W4 m ρ c (Proc.devRef .tc main_v53) = Cert.ReferenceIdeal.Read.val_main_v50 (F := Ideal) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  show StableHlo.after hostOps2 (W3 m ρ c) (Proc.devRef .tc main_v53) = _
  simp only [hostOps2]
  after_results_simp
  rw [msg3 m ρ c, arg2_3 m ρ c, arg3_3 m ρ c, arg4_3 m ρ c]
  rfl

theorem pre4 (c : Dev nD) : W4 m ρ c (Proc.devRef .tc main_v0_0) = Cert.ReferenceIdeal.Read.val_main_v0 (F := Ideal) (m ((c : Thread nD τ).loc main_arg1)) (m ((c : Thread nD τ).loc main_arg6)) :=
  (StableHlo.after_of_forall_not_mem _ _ (List.forall_iff_forall_mem.mp (by
    simp only [hostOps2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (pre3 m ρ c)
theorem arg0_4 (c : Dev nD) : W4 m ρ c (Proc.devRef .tc main_arg0) = m ((c : Thread nD τ).loc main_arg0) :=
  (StableHlo.after_of_forall_not_mem _ _ (List.forall_iff_forall_mem.mp (by
    simp only [hostOps2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (arg0_3 m ρ c)
theorem arg2_4 (c : Dev nD) : W4 m ρ c (Proc.devRef .tc main_arg2) = m ((c : Thread nD τ).loc main_arg2) :=
  (StableHlo.after_of_forall_not_mem _ _ (List.forall_iff_forall_mem.mp (by
    simp only [hostOps2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (arg2_3 m ρ c)
theorem arg5_4 (c : Dev nD) : W4 m ρ c (Proc.devRef .tc main_arg5) = m ((c : Thread nD τ).loc main_arg5) :=
  (StableHlo.after_of_forall_not_mem _ _ (List.forall_iff_forall_mem.mp (by
    simp only [hostOps2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (arg5_3 m ρ c)
theorem arg7_4 (c : Dev nD) : W4 m ρ c (Proc.devRef .tc main_arg7) = m ((c : Thread nD τ).loc main_arg7) :=
  (StableHlo.after_of_forall_not_mem _ _ (List.forall_iff_forall_mem.mp (by
    simp only [hostOps2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (arg7_3 m ρ c)
theorem arg8_4 (c : Dev nD) : W4 m ρ c (Proc.devRef .tc main_arg8) = m ((c : Thread nD τ).loc main_arg8) :=
  (StableHlo.after_of_forall_not_mem _ _ (List.forall_iff_forall_mem.mp (by
    simp only [hostOps2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (arg8_3 m ρ c)
theorem arg9_4 (c : Dev nD) : W4 m ρ c (Proc.devRef .tc main_arg9) = m ((c : Thread nD τ).loc main_arg9) :=
  (StableHlo.after_of_forall_not_mem _ _ (List.forall_iff_forall_mem.mp (by
    simp only [hostOps2, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (arg9_3 m ρ c)

end Cert.KernelIdeal.Stage2

end
-- ==== Proof.Stage3.lean ====
/-
  The buffers after the second message-update launch and after the third stretch of host operations.

  The launch leaves the reference's second round. The host stretch gathers and sums the six neighbour messages of
  every atom once more (the reference's aggregated messages; the change of float format is the identity), cuts the
  output weights into their first 133 rows and their last 300 rows, and casts the bias vector to a one-row matrix.
-/
import proofs.«167756_j15530601742850_2_alg».proof.Proof.Gen.KernelIdeal.Frame
import proofs.«167756_j15530601742850_2_alg».proof.Proof.Region2
import proofs.«167756_j15530601742850_2_alg».proof.Proof.RefValue
import proofs.«167756_j15530601742850_2_alg».proof.Proof.Stage2
import Idealize.ShloMosaic.Lib.StableHlo.Run

set_option maxRecDepth 16384

noncomputable section

namespace Cert.KernelIdeal.Stage3

open Cert.KernelIdeal Cert.KernelIdeal.Gen Cert.Mpnn
open Idealize.ShloMosaic Idealize.ShloMosaic.TcCoe Idealize.ShloMosaic.ValueIdx Idealize.SL.Sem

variable (m : (ℓ : Loc nD τ sig) → Buf (Elt Ideal) ℓ) (ρ : Dev nD → PrngReg)

/-- The messages after the second round are the reference's. -/
theorem msg5 (c : Dev nD) : W5 m ρ c (Proc.devRef .tc main_v54) = Cert.ReferenceIdeal.Read.val_main_v53 (F := Ideal) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  refine ((W5_arr m ρ c 3).trans (Step2.msg_array (V4 m ρ) c)).trans ?_
  show update (W4 m ρ c (Proc.devRef .tc main_v0_0)) (W4 m ρ c (Proc.devRef .tc main_v53)) (W4 m ρ c (Proc.devRef .tc main_arg7)) = _
  rw [Stage2.pre4 m ρ c, Stage2.combined4 m ρ c, Stage2.arg7_4 m ρ c]
  exact (Cert.ReferenceIdeal.RefValue.msg2_eq _ _ _ _ _ _).symm

theorem arg0_5 (c : Dev nD) : W5 m ρ c (Proc.devRef .tc main_arg0) = m ((c : Thread nD τ).loc main_arg0) :=
  (W5_of_ne m ρ c main_arg0 (by decide)).trans (Stage2.arg0_4 m ρ c)
theorem arg2_5 (c : Dev nD) : W5 m ρ c (Proc.devRef .tc main_arg2) = m ((c : Thread nD τ).loc main_arg2) :=
  (W5_of_ne m ρ c main_arg2 (by decide)).trans (Stage2.arg2_4 m ρ c)
theorem arg5_5 (c : Dev nD) : W5 m ρ c (Proc.devRef .tc main_arg5) = m ((c : Thread nD τ).loc main_arg5) :=
  (W5_of_ne m ρ c main_arg5 (by decide)).trans (Stage2.arg5_4 m ρ c)
theorem arg8_5 (c : Dev nD) : W5 m ρ c (Proc.devRef .tc main_arg8) = m ((c : Thread nD τ).loc main_arg8) :=
  (W5_of_ne m ρ c main_arg8 (by decide)).trans (Stage2.arg8_4 m ρ c)
theorem arg9_5 (c : Dev nD) : W5 m ρ c (Proc.devRef .tc main_arg9) = m ((c : Thread nD τ).loc main_arg9) :=
  (W5_of_ne m ρ c main_arg9 (by decide)).trans (Stage2.arg9_4 m ρ c)

/-- The aggregated messages are the reference's. -/
theorem agg6 (c : Dev nD) : W6 m ρ c (Proc.devRef .tc main_v64) = Cert.ReferenceIdeal.Read.val_main_v61 (F := Ideal) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  show StableHlo.after hostOps3 (W5 m ρ c) (Proc.devRef .tc main_v64) = _
  simp only [hostOps3]
  after_results_simp
  rw [msg5 m ρ c, arg2_5 m ρ c]
  rfl

/-- The upper rows of the output weights. -/
theorem upper6 (c : Dev nD) : W6 m ρ c (Proc.devRef .tc main_v65)
    = extractStridedSlice S133x300 ![0, 0] (m ((c : Thread nD τ).loc main_arg8)) slices_S433x300_S133x300_0_0 := by
  show StableHlo.after hostOps3 (W5 m ρ c) (Proc.devRef .tc main_v65) = _
  simp only [hostOps3]
  after_results_simp
  rw [arg8_5 m ρ c]

/-- The lower rows of the output weights. -/
theorem lower6 (c : Dev nD) : W6 m ρ c (Proc.devRef .tc main_v66)
    = extractStridedSlice S300x300 ![133, 0] (m ((c : Thread nD τ).loc main_arg8)) slices_S433x300_S300x300_133_0 := by
  show StableHlo.after hostOps3 (W5 m ρ c) (Proc.devRef .tc main_v66) = _
  simp only [hostOps3]
  after_results_simp
  rw [arg8_5 m ρ c]

/-- The bias as a one-row matrix. -/
theorem bias6 (c : Dev nD) : W6 m ρ c (Proc.devRef .tc main_v67)
    = shapeCast S1x300 (m ((c : Thread nD τ).loc main_arg9)) shapeCasts_S300_S1x300 := by
  show StableHlo.after hostOps3 (W5 m ρ c) (Proc.devRef .tc main_v67) = _
  simp only [hostOps3]
  after_results_simp
  rw [arg9_5 m ρ c]
  rfl

theorem arg0_6 (c : Dev nD) : W6 m ρ c (Proc.devRef .tc main_arg0) = m ((c : Thread nD τ).loc main_arg0) :=
  (StableHlo.after_of_forall_not_mem _ _ (List.forall_iff_forall_mem.mp (by
    simp only [hostOps3, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (arg0_5 m ρ c)
theorem arg5_6 (c : Dev nD) : W6 m ρ c (Proc.devRef .tc main_arg5) = m ((c : Thread nD τ).loc main_arg5) :=
  (StableHlo.after_of_forall_not_mem _ _ (List.forall_iff_forall_mem.mp (by
    simp only [hostOps3, List.Forall, StableHlo.nullary_writes, StableHlo.unary_writes, StableHlo.binary_writes, StableHlo.ternary_writes, StableHlo.reshape_writes, Finset.mem_singleton]
    repeat' apply And.intro
    all_goals exact StableHlo.devRef_ne_of_ne (by decide)))).trans (arg5_5 m ρ c)

end Cert.KernelIdeal.Stage3

end
-- ==== Proof.Stage4.lean ====
/-
  The buffers after the readout launch and after the last stretch of host operations: the result.

  The launch leaves `readout` of the atom features, the aggregated messages, the two blocks of rows of the output weights
  and the bias row; by the law joining the two spellings this is the reference's atom hidden states, computed from the
  joined rows, the whole weights and the bias vector. The last stretch pools the atoms of each molecule, counts them,
  and divides, exactly as the reference does, so the result is the reference's result of the same arguments.
-/
import proofs.«167756_j15530601742850_2_alg».proof.Proof.Gen.KernelIdeal.Frame
import proofs.«167756_j15530601742850_2_alg».proof.Proof.Region3
import proofs.«167756_j15530601742850_2_alg».proof.Proof.RefValue
import proofs.«167756_j15530601742850_2_alg».proof.Proof.ReadoutLaw
import proofs.«167756_j15530601742850_2_alg».proof.Proof.Stage3
import Idealize.ShloMosaic.Lib.StableHlo.Run

set_option maxRecDepth 16384

noncomputable section

namespace Cert.KernelIdeal.Stage4

open Cert.KernelIdeal Cert.KernelIdeal.Gen Cert.Mpnn
open Idealize.ShloMosaic Idealize.ShloMosaic.TcCoe Idealize.ShloMosaic.ValueIdx Idealize.SL.Sem

variable (m : (ℓ : Loc nD τ sig) → Buf (Elt Ideal) ℓ) (ρ : Dev nD → PrngReg)

/-- The atom hidden states are the reference's. -/
theorem hidden7 (c : Dev nD) : W7 m ρ c (Proc.devRef .tc main_v68) = Cert.ReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) := by
  refine ((W7_arr m ρ c 5).trans (Readout.out_array (V6 m ρ) c)).trans ?_
  show readout (W6 m ρ c (Proc.devRef .tc main_arg0)) (W6 m ρ c (Proc.devRef .tc main_v64)) (W6 m ρ c (Proc.devRef .tc main_v65))
    (W6 m ρ c (Proc.devRef .tc main_v66)) (W6 m ρ c (Proc.devRef .tc main_v67)) = _
  rw [Stage3.arg0_6 m ρ c, Stage3.agg6 m ρ c, Stage3.upper6 m ρ c, Stage3.lower6 m ρ c, Stage3.bias6 m ρ c,
    Cert.ReferenceIdeal.RefValue.hidden_eq]
  exact readout_joined _ _ _ _ _ _ _ _

theorem arg5_7 (c : Dev nD) : W7 m ρ c (Proc.devRef .tc main_arg5) = m ((c : Thread nD τ).loc main_arg5) :=
  (W7_of_ne m ρ c main_arg5 (by decide)).trans (Stage3.arg5_6 m ρ c)

/-- The result is the reference's result of the same arguments. -/
theorem result8 (c : Dev nD) : W8 m ρ c (Proc.devRef .tc main_v80) = Cert.ReferenceIdeal.Read.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps4 (W7 m ρ c) (Proc.devRef .tc main_v80) = _
  simp only [hostOps4]
  after_results_simp
  rw [hidden7 m ρ c, arg5_7 m ρ c]
  rfl

end Cert.KernelIdeal.Stage4

end
-- ==== Proof.lean ====
/-
  The proof of `Cert.Claim` for a directed message-passing network over bonds with mean pooling over molecules.

  The kernel computes every dense layer in a tiled launch — the bond initialisation, two rounds of message update and
  the atom readout — and leaves the neighbourhood gathers, sums and the pooling to host operations; the reference
  computes the same layers as whole-array products. On the extended reals the changes of float format are the
  identity and a tiled product is the product, so after each launch the kernel's array is the reference's stage of the
  same arguments, and each stretch of host operations is, operation by operation, the reference's. The one place the
  two programs arrange the arithmetic differently is the readout: the reference joins atom features and aggregated
  messages into rows of 433 entries and multiplies by the whole output weights, the kernel multiplies the two parts by the
  first 133 and the last 300 rows of the weights and adds; the sum over the joined axis splits at the seam, which needs
  only commutativity and associativity of addition, so the precondition is not used.

  The three frames: the two kernels' are the generated launch proofs; the reference's is its generated run with the
  result dropped. The idealization rewrote nothing, so `preserves` is trivial. For `algebraic` the kernel's run names
  its result buffer as the last boundary's contents, which the stage-by-stage walk identifies with the reference's
  result of the agreeing arguments.
-/
import proofs.«167756_j15530601742850_2_alg».proof.Defs
import proofs.«167756_j15530601742850_2_alg».proof.Proof.Gen.Kernel
import proofs.«167756_j15530601742850_2_alg».proof.Proof.Gen.Kernel.Skeleton
import proofs.«167756_j15530601742850_2_alg».proof.Proof.Gen.Kernel.Launch
import proofs.«167756_j15530601742850_2_alg».proof.Proof.Gen.Kernel.Points
import proofs.«167756_j15530601742850_2_alg».proof.Proof.Gen.Kernel.Frame
import proofs.«167756_j15530601742850_2_alg».proof.Proof.Gen.KernelIdeal
import proofs.«167756_j15530601742850_2_alg».proof.Proof.Gen.KernelIdeal.Skeleton
import proofs.«167756_j15530601742850_2_alg».proof.Proof.Gen.KernelIdeal.Launch
import proofs.«167756_j15530601742850_2_alg».proof.Proof.Gen.KernelIdeal.Points
import proofs.«167756_j15530601742850_2_alg».proof.Proof.Gen.KernelIdeal.Frame
import proofs.«167756_j15530601742850_2_alg».proof.Proof.Gen.ReferenceIdeal
import proofs.«167756_j15530601742850_2_alg».proof.Proof.Gen.Pre_finite_inputs
import proofs.«167756_j15530601742850_2_alg».proof.Proof.Gen.ReferenceIdeal.Run
import proofs.«167756_j15530601742850_2_alg».proof.Proof.Gen.ReferenceIdeal.Read
import proofs.«167756_j15530601742850_2_alg».proof.Proof.KernelRun
import proofs.«167756_j15530601742850_2_alg».proof.Proof.Stage4
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the same result: the kernel's result
    buffer holds the reference's result stage of the kernel's arguments, which are the reference's. -/
theorem algebraic : Cert.algebraic_KernelIdeal_ReferenceIdeal := by
  intro m ρ m' ρ' _ hagree
  refine ⟨fun c => Cert.KernelIdeal.Run.result m ρ c, Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v79_eq, h0, h1, h2, h3, h4, h5, h6, h7, h8, h9]
  exact (Cert.KernelIdeal.Stage4.result8 m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
